-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S4096x150 : Shape := ⟨2, ![4096, 150]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S4096x150 : S_.BroadcastsInDim S4096x150 (![] : Fin 0 → Fin S4096x150.rank)
  reducesTo_S4096x150_S_d0_1 : S4096x150.ReducesTo [0, 1] S_

variable [Facts]

def fn {F : FTy → Type} [FloatOps F] (main_arg0 : FVec F S4096x4096x2 .f32) (main_arg1 : FVec F S4096x150 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S4096x150 .f32 := Host.absf main_arg1
  let main_cst_0 : FVec F S_ .f32 := constant S_ .f32 0x7F800000#32
  let main_v5 : FVec F S4096x150 .f32 := broadcastInDim S4096x150 ![] bcast_S_S4096x150 main_cst_0
  let main_v6 : IVec S4096x150 1 := cmpf .olt main_v4 main_v5
  let main_c_1 : IVec S_ 1 := constantI S_ 1 1#1
  let main_v7 : IVec S_ 1 := (fun x v => Host.reduce IntOp.andi x v reducesTo_S4096x150_S_d0_1 h_S_) main_v6 main_c_1
  let main_v8 : IVec S_ 1 := andi main_v3 main_v7
  main_v8
-- ==== Kernel.lean ====
abbrev S4096x4096x2 : Shape := ⟨3, ![4096, 4096, 2]⟩
abbrev S4096x150 : Shape := ⟨2, ![4096, 150]⟩
abbrev S512x512x2 : Shape := ⟨3, ![512, 512, 2]⟩
abbrev S512x150 : Shape := ⟨2, ![512, 150]⟩
abbrev S512x512x1 : Shape := ⟨3, ![512, 512, 1]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096x2, .f32⟩
  | .hbm, ⟨1, _⟩ => ⟨S4096x150, .f32⟩
  | .hbm, ⟨2, _⟩ => ⟨S4096x150, .f32⟩
  | .hbm, ⟨3, _⟩ => ⟨S4096x150, .f32⟩
  | .local _ .vmem, ⟨0, _⟩ => ⟨S512x512x2, .f32⟩
  | .local _ .vmem, ⟨1, _⟩ => ⟨S512x512x2, .f32⟩
  | .local _ .vmem, ⟨2, _⟩ => ⟨S4096x150, .f32⟩
  | .local _ .vmem, ⟨3, _⟩ => ⟨S512x150, .f32⟩
  | .local _ .vmem, ⟨4, _⟩ => ⟨S512x150, .f32⟩
  | .local _ .vmem, ⟨5, _⟩ => ⟨S4096x150, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v15 : BitVec 32 := Scalar.muli arg0 c512_i32
  v15
def k0_mult2 (i : grid0.Coords) : BitVec 32 :=
  let arg1 : BitVec 32 := BitVec.ofNat 32 (i 1).val
  let c512_i32_6 : BitVec 32 := 512#32
  let v17 : BitVec 32 := Scalar.muli arg1 c512_i32_6
  v17
def k0_off1 (i : grid0.Coords) : Fin 2 → Nat :=
  let arg0 : BitVec 32 := BitVec.ofNat 32 (i 0).val
  let c512_i32 : BitVec 32 := 512#32
  let v15 : BitVec 32 := Scalar.muli arg0 c512_i32
  let v16 : BitVec 32 := v15
  let v19 : Index := Scalar.indexCast v16
  let c0_7 : Index := 0#32
  ![v19.toNat, 0]
def k0_off2 (i : grid0.Coords) : Fin 2 → Nat :=
  let arg1 : BitVec 32 := BitVec.ofNat 32 (i 1).val
  let c512_i32_6 : BitVec 32 := 512#32
  let v17 : BitVec 32 := Scalar.muli arg1 c512_i32_6
  let v18 : BitVec 32 := v17
  let v22 : Index := Scalar.indexCast v18
  let c0_8 : Index := 0#32
  ![v22.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x150 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S4096x150_S4096x150_0_0 : ∀ a, (![0, 0] : Fin 2 → Nat) a + S4096x150.size a ≤ S4096x150.size a
  h_S4096x150 : 0 < S4096x150.numel
  inb_S512x150_S512x150_0_0 : ∀ a, (![0, 0] : Fin 2 → Nat) a + S512x150.size a ≤ S512x150.size a
  h_S512x150 : 0 < S512x150.numel
  inb_S512x512x2_S512x512x2_0_0_0 : ∀ a, (![0, 0, 0] : Fin 3 → Nat) a + S512x512x2.size a ≤ S512x512x2.size a
  h_S512x512x2 : 0 < S512x512x2.numel
  slices_S512x512x2_o0_0_0_S512x512x1 : S512x512x2.Slices ![0, 0, 0] S512x512x1
  shapeCasts_S512x512x1_S512x512 : S512x512x1.ShapeCasts S512x512
  slices_S512x512x2_o0_0_1_S512x512x1 : S512x512x2.Slices ![0, 0, 1] S512x512x1
  bitsLt_bf16_f32 : FTy.bits .bf16 < FTy.bits .f32
  shapeCasts_S512x150_S512x150 : S512x150.ShapeCasts S512x150
  dot_S512x512_S512x150_S512x150_1_0_0_1_n_n_wf : DotDims.WF S512x512 S512x150 S512x150 [1] [0] [0] [1] [] []
  dot_S512x512_S512x150_S512x150_0_0_1_1_n_n_wf : DotDims.WF S512x512 S512x150 S512x150 [0] [0] [1] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x150.size a ≤ S4096x150.size a
  k0_off2_inb : ∀ i : grid0.Coords, ∀ a, (k0_off2 i) a + S512x150.size a ≤ S4096x150.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512x2.size a ≤ S4096x4096x2.size a
  hwx0_0 : ∀ i : grid0.Coords, EltTy.bits .f32 = 32 ∨ (Rect.block (s := S4096x4096x2) S512x512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x150.size a ≤ S4096x150.size a
  hwx0_1 : ∀ i : grid0.Coords, EltTy.bits .f32 = 32 ∨ (Rect.block (s := S4096x150) S4096x150.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x150.size a ≤ S4096x150.size a
  hwx0_2 : ∀ i : grid0.Coords, EltTy.bits .f32 = 32 ∨ (Rect.block (s := S4096x150) S512x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x150.size a ≤ S4096x150.size a
  hwx0_3 : ∀ i : grid0.Coords, EltTy.bits .f32 = 32 ∨ (Rect.block (s := S4096x150) S4096x150.size (cc0_transform_3 i) (hinb0_3 i)).WholeWords (EltTy.packing .f32)

variable [Facts₀]

def dot_S512x512_S512x150_S512x150_1_0_0_1_n_n : DotDims S512x512 S512x150 S512x150 where
  lhsContracting := [1]
  rhsContracting := [0]
  lhsNonContracting := [0]
  rhsNonContracting := [1]
  lhsBatch := []
  rhsBatch := []
  wf := dot_S512x512_S512x150_S512x150_1_0_0_1_n_n_wf
def dot_S512x512_S512x150_S512x150_0_0_1_1_n_n : DotDims S512x512 S512x150 S512x150 where
  lhsContracting := [0]
  rhsContracting := [0]
  lhsNonContracting := [1]
  rhsNonContracting := [1]
  lhsBatch := []
  rhsBatch := []
  wf := dot_S512x512_S512x150_S512x150_0_0_1_1_n_n_wf

abbrev win0_0 : Pipeline.Window sig grid0 :=
  Pipeline.Window.ofSpec (Memref.whole main_arg0) S512x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x150.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x150.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4096x150.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096x2 : Shape := ⟨3, ![4096, 4096, 2]⟩
abbrev S4096x150 : Shape := ⟨2, ![4096, 150]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x150, .f32⟩
  | .hbm, ⟨2, _⟩ => ⟨S_, .f32⟩
  | .hbm, ⟨3, _⟩ => ⟨S4096x4096, .f32⟩
  | .hbm, ⟨4, _⟩ => ⟨S4096x150, .f32⟩
  | .hbm, ⟨5, _⟩ => ⟨S4096x150, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S4096x4096x2_S4096x4096_d2 : S4096x4096x2.ReducesTo [2] S4096x4096
  h_S_ : 0 < S_.numel
  dot_S4096x4096_S4096x150_S4096x150_0_0_1_1_n_n_wf : DotDims.WF S4096x4096 S4096x150 S4096x150 [0] [0] [1] [1] [] []
  dot_S4096x4096_S4096x150_S4096x150_1_0_0_1_n_n_wf : DotDims.WF S4096x4096 S4096x150 S4096x150 [1] [0] [0] [1] [] []

variable [Facts₀]

def dot_S4096x4096_S4096x150_S4096x150_0_0_1_1_n_n : DotDims S4096x4096 S4096x150 S4096x150 where
  lhsContracting := [0]
  rhsContracting := [0]
  lhsNonContracting := [1]
  rhsNonContracting := [1]
  lhsBatch := []
  rhsBatch := []
  wf := dot_S4096x4096_S4096x150_S4096x150_0_0_1_1_n_n_wf
def dot_S4096x4096_S4096x150_S4096x150_1_0_0_1_n_n : DotDims S4096x4096 S4096x150 S4096x150 where
  lhsContracting := [1]
  rhsContracting := [0]
  lhsNonContracting := [0]
  rhsNonContracting := [1]
  lhsBatch := []
  rhsBatch := []
  wf := dot_S4096x4096_S4096x150_S4096x150_1_0_0_1_n_n_wf

class Facts : Prop extends Facts₀ where

variable [Facts]
-- ==== Proof.BitsConds.lean ====
/-
  Which of the body's two conditionals a grid point takes, and the staging buffers the body is called with.

  The 64 points are numbered row by row: point t is (I, J) = (t / 8, t % 8). The first conditional (zero the whole
  `h_in` array) is taken at point 0 only; the second (zero the point's block of `h_out`) at the first point of each row,
  J = 0.
-/
import proofs.«108071_j58471684767748_1_alg».proof.Proof.Gen.Kernel.Frame
import proofs.«108071_j58471684767748_1_alg».proof.Proof.Gen.Kernel.Skeleton

set_option maxRecDepth 16384

noncomputable section

namespace Cert.Kernel.Body

open Cert.Kernel Cert.Kernel.Gen
open Idealize.ShloMosaic Idealize.ShloMosaic.TcCoe

variable {F : FTy → Type} [FloatOps F]

/-- The first conditional's test: the point is the first of the grid. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional's test: the point is the first of its row of the grid. -/
abbrev cond0_1 (i : grid0.Coords) : Prop := (Scalar.cmpi .ne (Scalar.extui (Scalar.cmpi .eq (BitVec.ofNat 32 (i 1).val) 0#32)) 0#32) = 1#1

/-- The first test holds at the first point only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second test holds at the points ≡ 0 (mod 8) — decided over the grid. -/
theorem hcond0_1 : ∀ t : Fin cfg0.N, cond0_1 (grid0.coords t) ↔ t.val % 8 = 0 :=
  (by decide +kernel : ∀ t : Fin grid0.N, cond0_1 (grid0.coords t) ↔ t.val % 8 = 0)

/-- Each window's current staging buffer at point `t`, as the body is called with it, and that it is a whole buffer. -/
abbrev ms0_0 (t : Fin cfg0.N) : Memref sig .tc .vmem S512x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x150 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x150 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x150 .f32 := win0_3.stage (cfg0.slots t 3)
abbrev hs0_3 (t : Fin cfg0.N) : (ms0_3 t).IsWhole := hstage0_3 ((cfg0.slots t 3).cast nbuf0_3)

/-- Three literal zero offsets are the zero offsets. -/
theorem off3_zero : (![0, 0, 0] : Fin 3 → ℕ) = fun _ => 0 := by
  funext a; fin_cases a <;> rfl

end Cert.Kernel.Body

end
-- ==== Proof.BitsSteps.lean ====
/-
  One grid point's arithmetic, as two functions of what the point finds.

  The grid is 8 × 8; point (I, J) holds the 512 × 512 × 2 tile of the adjacency array at rows 512·I.., columns
  512·J.., and the whole feature matrix `h`. Writing `E r k` for the two edge channels of the tile added up,
  the point adds to its 512 rows of `h_out` the products `Σ_k E r k · h[512·J + k]` (`outStep`) and, inside the
  whole `h_in` array, to rows 512·J .. 512·J + 511 the products `Σ_k E k q · h[512·I + k]`, every other row left
  as it was (`inStep`).
-/
import proofs.«108071_j58471684767748_1_alg».proof.Proof.Gen.Kernel.Skeleton
import Idealize.ShloMosaic.Lib.Pipeline.FrameBody
import Idealize.ShloMosaic.Lib.WritesUnit

noncomputable section

namespace Cert.Kernel.Body

open Cert.Kernel Cert.Kernel.Gen
open Idealize.ShloMosaic

variable {F : FTy → Type} [FloatOps F]

/-- The 512 rows of a 4096-row matrix that start at the row offset `off 0`. -/
abbrev rowsOf (X : Vec F S4096x150 .f32) (off : Fin 2 → ℕ) (inb : ∀ a, off a + S512x150.size a ≤ S4096x150.size a) :
    Vec F S512x150 .f32 :=
  View.ld X (Rect.unit (s := S4096x150) off S512x150.size inb)

/-- What the point at coordinates `i` leaves in its block of `h_out`: the running block `acc` plus the tile's
    row-times-`h` products, `h` read at the rows of the point's column block. -/
def outStep (i : grid0.Coords) (x0 : Vec F S512x512x2 .f32) (x1 : Vec F S4096x150 .f32) (acc : Vec F S512x150 .f32) :
    Vec F S512x150 .f32 :=
  k0_pay4 x0 (rowsOf x1 (k0_off2 i) (k0_off2_inb i)) acc

/-- What the point at coordinates `i` leaves in the whole `h_in` array: on the rows of the point's column block the
    running rows plus the tile's column-times-`h` products (`h` read at the rows of the point's row block), every
    other row of the running array `acc` unchanged. -/
def inStep (i : grid0.Coords) (x0 : Vec F S512x512x2 .f32) (x1 : Vec F S4096x150 .f32) (acc : Vec F S4096x150 .f32) :
    Vec F S4096x150 .f32 := fun y =>
  if h : ∀ a, (k0_off2 i) a ≤ (y a).val ∧ (y a).val < (k0_off2 i) a + S512x150.size a then
    k0_pay5 x0 (rowsOf x1 (k0_off1 i) (k0_off1_inb i)) (rowsOf acc (k0_off2 i) (k0_off2_inb i))
      (Rect.unitLocal (s := S4096x150) (off := k0_off2 i) (size := S512x150.size) y h)
  else acc y

end Cert.Kernel.Body

end
-- ==== Proof.LibWholeBuffer.lean ====
/-
  A buffer that is loaded and stored WHOLE.

  A body that loads a whole staging buffer reads its contents, and one that stores a whole buffer leaves the stored
  vector, whatever was stored before: the rectangle of such an access is the unit rectangle at zero offsets of the
  buffer's own sizes, which is the whole index set. Three equations say so, for a load through a whole memref held at
  the raw contents that read `X`, for the contents after a list of stores whose LAST is whole, and for the offsets'
  spelling as a literal vector of zeros.
-/
import Idealize.ShloMosaic.Lib.Pipeline.FrameBody
import Idealize.ShloMosaic.Lib.Pipeline.Value
import Idealize.ShloMosaic.Lib.WholeRead

noncomputable section

namespace WholeBuffer

open Idealize.ShloMosaic

variable {sig : RefSig} {Val : EltTy → Type} {κ : Kind} {sp : Space} {S : Shape} {e : EltTy}

/-- Two literal zero offsets are the zero offsets. -/
theorem off2_zero : (![0, 0] : Fin 2 → ℕ) = fun _ => 0 := by
  funext a; fin_cases a <;> rfl

/-- One literal zero offset is the zero offsets. -/
theorem off1_zero : (![0] : Fin 1 → ℕ) = fun _ => 0 := by
  funext a; fin_cases a; rfl

/-- A load of the whole shape through a whole memref held at the raw contents that read `X` reads `X`. -/
theorem readAt_unit_zero_unread {m : Memref sig κ sp S e} (h : m.IsWhole) (X : S.Idx → Val e)
    {off : Fin S.rank → ℕ} (hoff : off = fun _ => 0) (inb : ∀ a, off a + S.size a ≤ S.size a) :
    View.readAt Val m.view (Rect.unit off S.size inb).toLoadRect (h.unread X) = X := by
  funext x
  exact (h.readAt_unread X _ x).trans (congrFun (View.ld_unit_zero hoff inb X) x)

/-- After stores the last of which stores the whole shape, the buffer reads as that store's vector. -/
theorem read_writes_cons_unit_zero [∀ e, Nonempty (Val e)] (v : View sig κ sp S e) (f : v.ty.Contents Val)
    {off : Fin S.rank → ℕ} (hoff : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hoff inb y⟩)]
  exact View.canon_cons_unit_zero hoff inb w L

end WholeBuffer

end
-- ==== Proof.BitsRunA.lean ====
/-
  The body at the first point of the grid: both output buffers are zeroed first, whatever they held.
-/
import proofs.«108071_j58471684767748_1_alg».proof.Proof.BitsConds
import proofs.«108071_j58471684767748_1_alg».proof.Proof.BitsSteps
import proofs.«108071_j58471684767748_1_alg».proof.Proof.LibWholeBuffer

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Both conditionals taken: whatever the two output buffers held, the body leaves `outStep` of zeros and `inStep` of zeros, the inputs as they were. -/
theorem kernelRunA (c : Dev nD) (i : grid0.Coords) (arg2 : Memref sig .tc .vmem S512x512x2 .f32) (harg2 : arg2.IsWhole) (arg3 : Memref sig .tc .vmem S4096x150 .f32) (harg3 : arg3.IsWhole) (arg4 : Memref sig .tc .vmem S512x150 .f32) (harg4 : arg4.IsWhole) (arg5 : Memref sig .tc .vmem S4096x150 .f32) (harg5 : arg5.IsWhole) (hc0 : cond0_0 i) (hc1 : cond0_1 i)
    (x0 : Vec F S512x512x2 .f32) (x1 : Vec F S4096x150 .f32) (xo2 : Vec F S512x150 .f32) (xo3 : Vec F S4096x150 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ owns (c : Thread nD τ) arg4 fullShare (outStep i x0 x1 k0_pay2)
                ∗ owns (c : Thread nD τ) arg5 fullShare (inStep i x0 x1 k0_pay1)) -∗ K ⟨⟩))
          ⊢ wp frame (wpE (defs₀ (F := F)) Variants.none c none) E (cc0__calc_s_kernel i arg2 harg2 arg3 harg3 arg4 harg4 arg5 harg5) K := by
    intro E K
    simp only [cc0__calc_s_kernel_eq_skeleton]; unfold cc0__calc_s_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    sl_unfold_run_names
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [WholeBuffer.read_writes_cons_unit_zero _ _ WholeBuffer.off2_zero]
      unfold outStep rowsOf
      rw [WholeBuffer.readAt_unit_zero_unread harg2 x0 off3_zero, View.readCov_unit_zero _ WholeBuffer.off2_zero,
        View.readAt_eq_ld, harg3.read_unread]
    iexists _; isplitr; swap; · iexact H3
    ipureintro
    rw [WholeBuffer.readAt_unit_zero_unread harg2 x0 off3_zero]
    simp only [View.readAt_eq_ld, harg3.read_unread]
    rw [WholeBuffer.read_writes_cons_unit_zero _ _ WholeBuffer.off2_zero]
    funext y
    rw [View.read_writes_cons_unit _ _ _ _ _ y rfl, WholeBuffer.read_writes_cons_unit_zero _ _ WholeBuffer.off2_zero]
    rfl

end Cert.Kernel.Body

end
-- ==== Proof.BitsRunB.lean ====
/-
  The body at a point that takes neither conditional (J ≠ 0): both running blocks are read and added to.
-/
import proofs.«108071_j58471684767748_1_alg».proof.Proof.BitsConds
import proofs.«108071_j58471684767748_1_alg».proof.Proof.BitsSteps
import proofs.«108071_j58471684767748_1_alg».proof.Proof.LibWholeBuffer

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Neither conditional taken: from the tile `x0`, the matrix `x1` and the running contents `xo2`, `xo3` of the two output buffers, the body leaves `outStep` of `xo2` and `inStep` of `xo3`, the inputs as they were. -/
theorem kernelRunB (c : Dev nD) (i : grid0.Coords) (arg2 : Memref sig .tc .vmem S512x512x2 .f32) (harg2 : arg2.IsWhole) (arg3 : Memref sig .tc .vmem S4096x150 .f32) (harg3 : arg3.IsWhole) (arg4 : Memref sig .tc .vmem S512x150 .f32) (harg4 : arg4.IsWhole) (arg5 : Memref sig .tc .vmem S4096x150 .f32) (harg5 : arg5.IsWhole) (hc0 : ¬cond0_0 i) (hc1 : ¬cond0_1 i)
    (x0 : Vec F S512x512x2 .f32) (x1 : Vec F S4096x150 .f32) (xo2 : Vec F S512x150 .f32) (xo3 : Vec F S4096x150 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ owns (c : Thread nD τ) arg4 fullShare (outStep i x0 x1 xo2)
                ∗ owns (c : Thread nD τ) arg5 fullShare (inStep i x0 x1 xo3)) -∗ K ⟨⟩))
          ⊢ wp frame (wpE (defs₀ (F := F)) Variants.none c none) E (cc0__calc_s_kernel i arg2 harg2 arg3 harg3 arg4 harg4 arg5 harg5) K := by
    intro E K
    simp only [cc0__calc_s_kernel_eq_skeleton]; unfold cc0__calc_s_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    sl_unfold_run_names
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [WholeBuffer.read_writes_cons_unit_zero _ _ WholeBuffer.off2_zero]
      unfold outStep rowsOf
      rw [WholeBuffer.readAt_unit_zero_unread harg2 x0 off3_zero, WholeBuffer.readAt_unit_zero_unread harg4 xo2 WholeBuffer.off2_zero,
        View.readAt_eq_ld, harg3.read_unread]
    iexists _; isplitr; swap; · iexact H3
    ipureintro
    rw [WholeBuffer.readAt_unit_zero_unread harg2 x0 off3_zero]
    simp only [View.readAt_eq_ld, harg3.read_unread, harg5.read_unread]
    funext y
    rw [View.read_writes_cons_unit _ _ _ _ _ y rfl, View.writes_nil, harg5.read_unread]
    rfl

end Cert.Kernel.Body

end
-- ==== Proof.BitsRunC.lean ====
/-
  The body at the first point of a later row of the grid (J = 0, I ≠ 0): the `h_out` block is zeroed first, the
  running `h_in` array is read and added to.
-/
import proofs.«108071_j58471684767748_1_alg».proof.Proof.BitsConds
import proofs.«108071_j58471684767748_1_alg».proof.Proof.BitsSteps
import proofs.«108071_j58471684767748_1_alg».proof.Proof.LibWholeBuffer

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The second conditional taken only: whatever the `h_out` buffer held, the body leaves `outStep` of zeros there, and `inStep` of the running contents `xo3` in the `h_in` buffer, the inputs as they were. -/
theorem kernelRunC (c : Dev nD) (i : grid0.Coords) (arg2 : Memref sig .tc .vmem S512x512x2 .f32) (harg2 : arg2.IsWhole) (arg3 : Memref sig .tc .vmem S4096x150 .f32) (harg3 : arg3.IsWhole) (arg4 : Memref sig .tc .vmem S512x150 .f32) (harg4 : arg4.IsWhole) (arg5 : Memref sig .tc .vmem S4096x150 .f32) (harg5 : arg5.IsWhole) (hc0 : ¬cond0_0 i) (hc1 : cond0_1 i)
    (x0 : Vec F S512x512x2 .f32) (x1 : Vec F S4096x150 .f32) (xo2 : Vec F S512x150 .f32) (xo3 : Vec F S4096x150 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ owns (c : Thread nD τ) arg4 fullShare (outStep i x0 x1 k0_pay2)
                ∗ owns (c : Thread nD τ) arg5 fullShare (inStep i x0 x1 xo3)) -∗ K ⟨⟩))
          ⊢ wp frame (wpE (defs₀ (F := F)) Variants.none c none) E (cc0__calc_s_kernel i arg2 harg2 arg3 harg3 arg4 harg4 arg5 harg5) K := by
    intro E K
    simp only [cc0__calc_s_kernel_eq_skeleton]; unfold cc0__calc_s_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    sl_unfold_run_names
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [WholeBuffer.read_writes_cons_unit_zero _ _ WholeBuffer.off2_zero]
      unfold outStep rowsOf
      rw [WholeBuffer.readAt_unit_zero_unread harg2 x0 off3_zero, View.readCov_unit_zero _ WholeBuffer.off2_zero,
        View.readAt_eq_ld, harg3.read_unread]
    iexists _; isplitr; swap; · iexact H3
    ipureintro
    rw [WholeBuffer.readAt_unit_zero_unread harg2 x0 off3_zero]
    simp only [View.readAt_eq_ld, harg3.read_unread, harg5.read_unread]
    funext y
    rw [View.read_writes_cons_unit _ _ _ _ _ y rfl, View.writes_nil, harg5.read_unread]
    rfl

end Cert.Kernel.Body

end
-- ==== Proof.BitsFrame.lean ====
/-
  The kernel's run over its 8 × 8 grid, with what the two output buffers hold after every point.

  The block of `h_out` a row of the grid works on is zeroed at the row's first point (J = 0) and then takes `outStep`
  at each point of the row; it is written back after the row's last point (J = 7). The whole `h_in` array is staged
  once: zeroed at point 0, it takes `inStep` at every point and is written back after the last. Between two points
  that do not write a buffer back, the buffer holds what the earlier point left, so the contents after point `n` are
  given by recursion on `n` (`out2At`, `out3At`). The body's run at a point is one of three cases (both conditionals
  taken, the second only, neither), chosen by the point's number.
-/
import proofs.«108071_j58471684767748_1_alg».proof.Proof.BitsRunA
import proofs.«108071_j58471684767748_1_alg».proof.Proof.BitsRunB
import proofs.«108071_j58471684767748_1_alg».proof.Proof.BitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold after each point -/

/-- The `h_out` block after point `n`: `outStep` of zeros at the first point of a row of the grid, of what the point
    before left otherwise. -/
def out2At (c : Dev nD) : (n : ℕ) → n < cfg0.N → Vec F S512x150 .f32
  | 0, hn => outStep (grid0.coords ⟨0, hn⟩) (iblk m c 0 ⟨0, hn⟩) (iblk m c 1 ⟨0, hn⟩) k0_pay2
  | n + 1, hn =>
    if (n + 1) % 8 = 0 then
      outStep (grid0.coords ⟨n + 1, hn⟩) (iblk m c 0 ⟨n + 1, hn⟩) (iblk m c 1 ⟨n + 1, hn⟩) k0_pay2
    else
      outStep (grid0.coords ⟨n + 1, hn⟩) (iblk m c 0 ⟨n + 1, hn⟩) (iblk m c 1 ⟨n + 1, hn⟩) (out2At c n (Nat.lt_of_succ_lt hn))

/-- The `h_in` array after point `n`: `inStep` of zeros at point 0, of what the point before left afterwards. -/
def out3At (c : Dev nD) : (n : ℕ) → n < cfg0.N → Vec F S4096x150 .f32
  | 0, hn => inStep (grid0.coords ⟨0, hn⟩) (iblk m c 0 ⟨0, hn⟩) (iblk m c 1 ⟨0, hn⟩) k0_pay1
  | n + 1, hn =>
    inStep (grid0.coords ⟨n + 1, hn⟩) (iblk m c 0 ⟨n + 1, hn⟩) (iblk m c 1 ⟨n + 1, hn⟩) (out3At c n (Nat.lt_of_succ_lt hn))

theorem out2At_reset (c : Dev nD) (t : Fin cfg0.N) (h1 : t.val % 8 = 0) :
    out2At m c t.val t.isLt = outStep (grid0.coords t) (iblk m c 0 t) (iblk m c 1 t) k0_pay2 := by
  obtain ⟨n, hn⟩ := t
  cases n with
  | zero => exact rfl
  | succ n => exact (if_pos h1).trans rfl

theorem out2At_acc (c : Dev nD) (t : Fin cfg0.N) (h1 : ¬t.val % 8 = 0) :
    out2At m c t.val t.isLt = outStep (grid0.coords t) (iblk m c 0 t) (iblk m c 1 t)
      (out2At m c (t.val - 1) (Nat.lt_of_le_of_lt (Nat.sub_le _ _) t.isLt)) := by
  obtain ⟨n, hn⟩ := t
  cases n with
  | zero => exact absurd (Nat.zero_mod _) h1
  | succ n => exact (if_neg h1).trans rfl

theorem out3At_zero (c : Dev nD) (t : Fin cfg0.N) (h0 : t.val = 0) :
    out3At m c t.val t.isLt = inStep (grid0.coords t) (iblk m c 0 t) (iblk m c 1 t) k0_pay1 := by
  obtain ⟨n, hn⟩ := t
  cases n with
  | zero => exact rfl
  | succ n => exact absurd h0 (Nat.succ_ne_zero n)

theorem out3At_succ (c : Dev nD) (t : Fin cfg0.N) (h0 : t.val ≠ 0) :
    out3At m c t.val t.isLt = inStep (grid0.coords t) (iblk m c 0 t) (iblk m c 1 t)
      (out3At m c (t.val - 1) (Nat.lt_of_le_of_lt (Nat.sub_le _ _) t.isLt)) := by
  obtain ⟨n, hn⟩ := t
  cases n with
  | zero => exact absurd rfl h0
  | succ n => exact rfl

/-! ## The pipeline's proof data -/

/-- The arrays as the region finds them; after the body at point `t` each input's buffer at its block and the
    outputs' at `out2At`, `out3At`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2At m c t.val t.isLt
    | ⟨3, _⟩ => out3At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2At m c t.val t.isLt := by dsimp only [dats]
theorem after0_3 (c : Dev nD) (t : Fin cfg0.N) : (dats m 0 c).after 3 t = out3At m c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Inside a row of the grid the `h_out` block's buffer holds what the point before left: it is written back only
    after the row's last point. -/
theorem before0_2_acc (c : Dev nD) (t : Fin cfg0.N) (h1 : ¬t.val % 8 = 0) (d) :
    (dats m 0 c).before 2 t d = out2At m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- After point 0 the `h_in` array's buffer holds what the point before left: it is written back only after the
    last point. -/
theorem before0_3_succ (c : Dev nD) (t : Fin cfg0.N) (h0 : t.val ≠ 0) (d) :
    (dats m 0 c).before 3 t d = out3At m c (t.val - 1) (Nat.lt_of_le_of_lt (Nat.sub_le _ _) t.isLt) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: the inputs' buffers hold their blocks; the point's number says which case it is in; an
    output buffer the case adds to holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 64 = 0
  · have h1 : t.val % 8 = 0 := by omega
    have ht : t.val = 0 := by omega
    rw [out2At_reset m c t h1, out3At_zero m c t ht]
    iintro ⟨HΦ, Ho, ⟨%d0, H0⟩, ⟨%d1, H1⟩, ⟨%d2, H2⟩, ⟨%d3, H3⟩⟩
    iapply ((kernelRunA c (grid0.coords t) _ _ _ _ _ _ _ _ ((hcond0_0 t).mpr h0) ((hcond0_1 t).mpr h1) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have ht : t.val ≠ 0 := by omega
    by_cases h1 : t.val % 8 = 0
    · rw [out2At_reset m c t h1, out3At_succ m c t ht]
      simp only [before0_3_succ m c t ht]
      iintro ⟨HΦ, Ho, ⟨%d0, H0⟩, ⟨%d1, H1⟩, ⟨%d2, H2⟩, ⟨%d3, H3⟩⟩
      iapply ((kernelRunC c (grid0.coords t) _ _ _ _ _ _ _ _ (fun h => h0 ((hcond0_0 t).mp h)) ((hcond0_1 t).mpr h1) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [out2At_acc m c t h1, out3At_succ m c t ht]
      simp only [before0_2_acc m c t h1, before0_3_succ m c t ht]
      iintro ⟨HΦ, Ho, ⟨%d0, H0⟩, ⟨%d1, H1⟩, ⟨%d2, H2⟩, ⟨%d3, H3⟩⟩
      iapply ((kernelRunB c (grid0.coords t) _ _ _ _ _ _ _ _ (fun h => h0 ((hcond0_0 t).mp h)) (fun h => h1 ((hcond0_1 t).mp h)) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the proof data computes — an input its contents at entry, an output those
    overwritten by what the body left at each write-back — and every other unscoped buffer what it held at entry. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealConds.lean ====
/-
  Which of the body's two conditionals a grid point takes, and the staging buffers the body is called with.

  The 64 points are numbered row by row: point t is (I, J) = (t / 8, t % 8). The first conditional (zero the whole
  `h_in` array) is taken at point 0 only; the second (zero the point's block of `h_out`) at the first point of each row,
  J = 0.
-/
import proofs.«108071_j58471684767748_1_alg».proof.Proof.Gen.KernelIdeal.Frame
import proofs.«108071_j58471684767748_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe

variable {F : FTy → Type} [FloatOps F]

/-- The first conditional's test: the point is the first of the grid. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional's test: the point is the first of its row of the grid. -/
abbrev cond0_1 (i : grid0.Coords) : Prop := (Scalar.cmpi .ne (Scalar.extui (Scalar.cmpi .eq (BitVec.ofNat 32 (i 1).val) 0#32)) 0#32) = 1#1

/-- The first test holds at the first point only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second test holds at the points ≡ 0 (mod 8) — decided over the grid. -/
theorem hcond0_1 : ∀ t : Fin cfg0.N, cond0_1 (grid0.coords t) ↔ t.val % 8 = 0 :=
  (by decide +kernel : ∀ t : Fin grid0.N, cond0_1 (grid0.coords t) ↔ t.val % 8 = 0)

/-- Each window's current staging buffer at point `t`, as the body is called with it, and that it is a whole buffer. -/
abbrev ms0_0 (t : Fin cfg0.N) : Memref sig .tc .vmem S512x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x150 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x150 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x150 .f32 := win0_3.stage (cfg0.slots t 3)
abbrev hs0_3 (t : Fin cfg0.N) : (ms0_3 t).IsWhole := hstage0_3 ((cfg0.slots t 3).cast nbuf0_3)

/-- Three literal zero offsets are the zero offsets. -/
theorem off3_zero : (![0, 0, 0] : Fin 3 → ℕ) = fun _ => 0 := by
  funext a; fin_cases a <;> rfl

end Cert.KernelIdeal.Body

end
-- ==== Proof.IdealSteps.lean ====
/-
  One grid point's arithmetic, as two functions of what the point finds.

  The grid is 8 × 8; point (I, J) holds the 512 × 512 × 2 tile of the adjacency array at rows 512·I.., columns
  512·J.., and the whole feature matrix `h`. Writing `E r k` for the two edge channels of the tile added up,
  the point adds to its 512 rows of `h_out` the products `Σ_k E r k · h[512·J + k]` (`outStep`) and, inside the
  whole `h_in` array, to rows 512·J .. 512·J + 511 the products `Σ_k E k q · h[512·I + k]`, every other row left
  as it was (`inStep`).
-/
import proofs.«108071_j58471684767748_1_alg».proof.Proof.Gen.KernelIdeal.Skeleton
import Idealize.ShloMosaic.Lib.Pipeline.FrameBody
import Idealize.ShloMosaic.Lib.WritesUnit

noncomputable section

namespace Cert.KernelIdeal.Body

open Cert.KernelIdeal Cert.KernelIdeal.Gen
open Idealize.ShloMosaic

variable {F : FTy → Type} [FloatOps F]

/-- The 512 rows of a 4096-row matrix that start at the row offset `off 0`. -/
abbrev rowsOf (X : Vec F S4096x150 .f32) (off : Fin 2 → ℕ) (inb : ∀ a, off a + S512x150.size a ≤ S4096x150.size a) :
    Vec F S512x150 .f32 :=
  View.ld X (Rect.unit (s := S4096x150) off S512x150.size inb)

/-- What the point at coordinates `i` leaves in its block of `h_out`: the running block `acc` plus the tile's
    row-times-`h` products, `h` read at the rows of the point's column block. -/
def outStep (i : grid0.Coords) (x0 : Vec F S512x512x2 .f32) (x1 : Vec F S4096x150 .f32) (acc : Vec F S512x150 .f32) :
    Vec F S512x150 .f32 :=
  k0_pay4 x0 (rowsOf x1 (k0_off2 i) (k0_off2_inb i)) acc

/-- What the point at coordinates `i` leaves in the whole `h_in` array: on the rows of the point's column block the
    running rows plus the tile's column-times-`h` products (`h` read at the rows of the point's row block), every
    other row of the running array `acc` unchanged. -/
def inStep (i : grid0.Coords) (x0 : Vec F S512x512x2 .f32) (x1 : Vec F S4096x150 .f32) (acc : Vec F S4096x150 .f32) :
    Vec F S4096x150 .f32 := fun y =>
  if h : ∀ a, (k0_off2 i) a ≤ (y a).val ∧ (y a).val < (k0_off2 i) a + S512x150.size a then
    k0_pay5 x0 (rowsOf x1 (k0_off1 i) (k0_off1_inb i)) (rowsOf acc (k0_off2 i) (k0_off2_inb i))
      (Rect.unitLocal (s := S4096x150) (off := k0_off2 i) (size := S512x150.size) y h)
  else acc y

end Cert.KernelIdeal.Body

end
-- ==== Proof.IdealRunA.lean ====
/-
  The body at the first point of the grid: both output buffers are zeroed first, whatever they held.
-/
import proofs.«108071_j58471684767748_1_alg».proof.Proof.IdealConds
import proofs.«108071_j58471684767748_1_alg».proof.Proof.IdealSteps
import proofs.«108071_j58471684767748_1_alg».proof.Proof.LibWholeBuffer

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Both conditionals taken: whatever the two output buffers held, the body leaves `outStep` of zeros and `inStep` of zeros, the inputs as they were. -/
theorem kernelRunA (c : Dev nD) (i : grid0.Coords) (arg2 : Memref sig .tc .vmem S512x512x2 .f32) (harg2 : arg2.IsWhole) (arg3 : Memref sig .tc .vmem S4096x150 .f32) (harg3 : arg3.IsWhole) (arg4 : Memref sig .tc .vmem S512x150 .f32) (harg4 : arg4.IsWhole) (arg5 : Memref sig .tc .vmem S4096x150 .f32) (harg5 : arg5.IsWhole) (hc0 : cond0_0 i) (hc1 : cond0_1 i)
    (x0 : Vec F S512x512x2 .f32) (x1 : Vec F S4096x150 .f32) (xo2 : Vec F S512x150 .f32) (xo3 : Vec F S4096x150 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ owns (c : Thread nD τ) arg4 fullShare (outStep i x0 x1 k0_pay2)
                ∗ owns (c : Thread nD τ) arg5 fullShare (inStep i x0 x1 k0_pay1)) -∗ K ⟨⟩))
          ⊢ wp frame (wpE (defs₀ (F := F)) Variants.none c none) E (cc0__calc_s_kernel i arg2 harg2 arg3 harg3 arg4 harg4 arg5 harg5) K := by
    intro E K
    simp only [cc0__calc_s_kernel_eq_skeleton]; unfold cc0__calc_s_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    sl_unfold_run_names
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [WholeBuffer.read_writes_cons_unit_zero _ _ WholeBuffer.off2_zero]
      unfold outStep rowsOf
      rw [WholeBuffer.readAt_unit_zero_unread harg2 x0 off3_zero, View.readCov_unit_zero _ WholeBuffer.off2_zero,
        View.readAt_eq_ld, harg3.read_unread]
    iexists _; isplitr; swap; · iexact H3
    ipureintro
    rw [WholeBuffer.readAt_unit_zero_unread harg2 x0 off3_zero]
    simp only [View.readAt_eq_ld, harg3.read_unread]
    rw [WholeBuffer.read_writes_cons_unit_zero _ _ WholeBuffer.off2_zero]
    funext y
    rw [View.read_writes_cons_unit _ _ _ _ _ y rfl, WholeBuffer.read_writes_cons_unit_zero _ _ WholeBuffer.off2_zero]
    rfl

end Cert.KernelIdeal.Body

end
-- ==== Proof.IdealRunB.lean ====
/-
  The body at a point that takes neither conditional (J ≠ 0): both running blocks are read and added to.
-/
import proofs.«108071_j58471684767748_1_alg».proof.Proof.IdealConds
import proofs.«108071_j58471684767748_1_alg».proof.Proof.IdealSteps
import proofs.«108071_j58471684767748_1_alg».proof.Proof.LibWholeBuffer

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Neither conditional taken: from the tile `x0`, the matrix `x1` and the running contents `xo2`, `xo3` of the two output buffers, the body leaves `outStep` of `xo2` and `inStep` of `xo3`, the inputs as they were. -/
theorem kernelRunB (c : Dev nD) (i : grid0.Coords) (arg2 : Memref sig .tc .vmem S512x512x2 .f32) (harg2 : arg2.IsWhole) (arg3 : Memref sig .tc .vmem S4096x150 .f32) (harg3 : arg3.IsWhole) (arg4 : Memref sig .tc .vmem S512x150 .f32) (harg4 : arg4.IsWhole) (arg5 : Memref sig .tc .vmem S4096x150 .f32) (harg5 : arg5.IsWhole) (hc0 : ¬cond0_0 i) (hc1 : ¬cond0_1 i)
    (x0 : Vec F S512x512x2 .f32) (x1 : Vec F S4096x150 .f32) (xo2 : Vec F S512x150 .f32) (xo3 : Vec F S4096x150 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ owns (c : Thread nD τ) arg4 fullShare (outStep i x0 x1 xo2)
                ∗ owns (c : Thread nD τ) arg5 fullShare (inStep i x0 x1 xo3)) -∗ K ⟨⟩))
          ⊢ wp frame (wpE (defs₀ (F := F)) Variants.none c none) E (cc0__calc_s_kernel i arg2 harg2 arg3 harg3 arg4 harg4 arg5 harg5) K := by
    intro E K
    simp only [cc0__calc_s_kernel_eq_skeleton]; unfold cc0__calc_s_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    sl_unfold_run_names
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [WholeBuffer.read_writes_cons_unit_zero _ _ WholeBuffer.off2_zero]
      unfold outStep rowsOf
      rw [WholeBuffer.readAt_unit_zero_unread harg2 x0 off3_zero, WholeBuffer.readAt_unit_zero_unread harg4 xo2 WholeBuffer.off2_zero,
        View.readAt_eq_ld, harg3.read_unread]
    iexists _; isplitr; swap; · iexact H3
    ipureintro
    rw [WholeBuffer.readAt_unit_zero_unread harg2 x0 off3_zero]
    simp only [View.readAt_eq_ld, harg3.read_unread, harg5.read_unread]
    funext y
    rw [View.read_writes_cons_unit _ _ _ _ _ y rfl, View.writes_nil, harg5.read_unread]
    rfl

end Cert.KernelIdeal.Body

end
-- ==== Proof.IdealRunC.lean ====
/-
  The body at the first point of a later row of the grid (J = 0, I ≠ 0): the `h_out` block is zeroed first, the
  running `h_in` array is read and added to.
-/
import proofs.«108071_j58471684767748_1_alg».proof.Proof.IdealConds
import proofs.«108071_j58471684767748_1_alg».proof.Proof.IdealSteps
import proofs.«108071_j58471684767748_1_alg».proof.Proof.LibWholeBuffer

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The second conditional taken only: whatever the `h_out` buffer held, the body leaves `outStep` of zeros there, and `inStep` of the running contents `xo3` in the `h_in` buffer, the inputs as they were. -/
theorem kernelRunC (c : Dev nD) (i : grid0.Coords) (arg2 : Memref sig .tc .vmem S512x512x2 .f32) (harg2 : arg2.IsWhole) (arg3 : Memref sig .tc .vmem S4096x150 .f32) (harg3 : arg3.IsWhole) (arg4 : Memref sig .tc .vmem S512x150 .f32) (harg4 : arg4.IsWhole) (arg5 : Memref sig .tc .vmem S4096x150 .f32) (harg5 : arg5.IsWhole) (hc0 : ¬cond0_0 i) (hc1 : cond0_1 i)
    (x0 : Vec F S512x512x2 .f32) (x1 : Vec F S4096x150 .f32) (xo2 : Vec F S512x150 .f32) (xo3 : Vec F S4096x150 .f32) :
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ owns (c : Thread nD τ) arg4 fullShare (outStep i x0 x1 k0_pay2)
                ∗ owns (c : Thread nD τ) arg5 fullShare (inStep i x0 x1 xo3)) -∗ K ⟨⟩))
          ⊢ wp frame (wpE (defs₀ (F := F)) Variants.none c none) E (cc0__calc_s_kernel i arg2 harg2 arg3 harg3 arg4 harg4 arg5 harg5) K := by
    intro E K
    simp only [cc0__calc_s_kernel_eq_skeleton]; unfold cc0__calc_s_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    sl_unfold_run_names
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [WholeBuffer.read_writes_cons_unit_zero _ _ WholeBuffer.off2_zero]
      unfold outStep rowsOf
      rw [WholeBuffer.readAt_unit_zero_unread harg2 x0 off3_zero, View.readCov_unit_zero _ WholeBuffer.off2_zero,
        View.readAt_eq_ld, harg3.read_unread]
    iexists _; isplitr; swap; · iexact H3
    ipureintro
    rw [WholeBuffer.readAt_unit_zero_unread harg2 x0 off3_zero]
    simp only [View.readAt_eq_ld, harg3.read_unread, harg5.read_unread]
    funext y
    rw [View.read_writes_cons_unit _ _ _ _ _ y rfl, View.writes_nil, harg5.read_unread]
    rfl

end Cert.KernelIdeal.Body

end
-- ==== Proof.IdealFrame.lean ====
/-
  The kernel's run over its 8 × 8 grid, with what the two output buffers hold after every point.

  The block of `h_out` a row of the grid works on is zeroed at the row's first point (J = 0) and then takes `outStep`
  at each point of the row; it is written back after the row's last point (J = 7). The whole `h_in` array is staged
  once: zeroed at point 0, it takes `inStep` at every point and is written back after the last. Between two points
  that do not write a buffer back, the buffer holds what the earlier point left, so the contents after point `n` are
  given by recursion on `n` (`out2At`, `out3At`). The body's run at a point is one of three cases (both conditionals
  taken, the second only, neither), chosen by the point's number.
-/
import proofs.«108071_j58471684767748_1_alg».proof.Proof.IdealRunA
import proofs.«108071_j58471684767748_1_alg».proof.Proof.IdealRunB
import proofs.«108071_j58471684767748_1_alg».proof.Proof.IdealRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold after each point -/

/-- The `h_out` block after point `n`: `outStep` of zeros at the first point of a row of the grid, of what the point
    before left otherwise. -/
def out2At (c : Dev nD) : (n : ℕ) → n < cfg0.N → Vec F S512x150 .f32
  | 0, hn => outStep (grid0.coords ⟨0, hn⟩) (iblk m c 0 ⟨0, hn⟩) (iblk m c 1 ⟨0, hn⟩) k0_pay2
  | n + 1, hn =>
    if (n + 1) % 8 = 0 then
      outStep (grid0.coords ⟨n + 1, hn⟩) (iblk m c 0 ⟨n + 1, hn⟩) (iblk m c 1 ⟨n + 1, hn⟩) k0_pay2
    else
      outStep (grid0.coords ⟨n + 1, hn⟩) (iblk m c 0 ⟨n + 1, hn⟩) (iblk m c 1 ⟨n + 1, hn⟩) (out2At c n (Nat.lt_of_succ_lt hn))

/-- The `h_in` array after point `n`: `inStep` of zeros at point 0, of what the point before left afterwards. -/
def out3At (c : Dev nD) : (n : ℕ) → n < cfg0.N → Vec F S4096x150 .f32
  | 0, hn => inStep (grid0.coords ⟨0, hn⟩) (iblk m c 0 ⟨0, hn⟩) (iblk m c 1 ⟨0, hn⟩) k0_pay1
  | n + 1, hn =>
    inStep (grid0.coords ⟨n + 1, hn⟩) (iblk m c 0 ⟨n + 1, hn⟩) (iblk m c 1 ⟨n + 1, hn⟩) (out3At c n (Nat.lt_of_succ_lt hn))

theorem out2At_reset (c : Dev nD) (t : Fin cfg0.N) (h1 : t.val % 8 = 0) :
    out2At m c t.val t.isLt = outStep (grid0.coords t) (iblk m c 0 t) (iblk m c 1 t) k0_pay2 := by
  obtain ⟨n, hn⟩ := t
  cases n with
  | zero => exact rfl
  | succ n => exact (if_pos h1).trans rfl

theorem out2At_acc (c : Dev nD) (t : Fin cfg0.N) (h1 : ¬t.val % 8 = 0) :
    out2At m c t.val t.isLt = outStep (grid0.coords t) (iblk m c 0 t) (iblk m c 1 t)
      (out2At m c (t.val - 1) (Nat.lt_of_le_of_lt (Nat.sub_le _ _) t.isLt)) := by
  obtain ⟨n, hn⟩ := t
  cases n with
  | zero => exact absurd (Nat.zero_mod _) h1
  | succ n => exact (if_neg h1).trans rfl

theorem out3At_zero (c : Dev nD) (t : Fin cfg0.N) (h0 : t.val = 0) :
    out3At m c t.val t.isLt = inStep (grid0.coords t) (iblk m c 0 t) (iblk m c 1 t) k0_pay1 := by
  obtain ⟨n, hn⟩ := t
  cases n with
  | zero => exact rfl
  | succ n => exact absurd h0 (Nat.succ_ne_zero n)

theorem out3At_succ (c : Dev nD) (t : Fin cfg0.N) (h0 : t.val ≠ 0) :
    out3At m c t.val t.isLt = inStep (grid0.coords t) (iblk m c 0 t) (iblk m c 1 t)
      (out3At m c (t.val - 1) (Nat.lt_of_le_of_lt (Nat.sub_le _ _) t.isLt)) := by
  obtain ⟨n, hn⟩ := t
  cases n with
  | zero => exact absurd rfl h0
  | succ n => exact rfl

/-! ## The pipeline's proof data -/

/-- The arrays as the region finds them; after the body at point `t` each input's buffer at its block and the
    outputs' at `out2At`, `out3At`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2At m c t.val t.isLt
    | ⟨3, _⟩ => out3At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2At m c t.val t.isLt := by dsimp only [dats]
theorem after0_3 (c : Dev nD) (t : Fin cfg0.N) : (dats m 0 c).after 3 t = out3At m c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Inside a row of the grid the `h_out` block's buffer holds what the point before left: it is written back only
    after the row's last point. -/
theorem before0_2_acc (c : Dev nD) (t : Fin cfg0.N) (h1 : ¬t.val % 8 = 0) (d) :
    (dats m 0 c).before 2 t d = out2At m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- After point 0 the `h_in` array's buffer holds what the point before left: it is written back only after the
    last point. -/
theorem before0_3_succ (c : Dev nD) (t : Fin cfg0.N) (h0 : t.val ≠ 0) (d) :
    (dats m 0 c).before 3 t d = out3At m c (t.val - 1) (Nat.lt_of_le_of_lt (Nat.sub_le _ _) t.isLt) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1200000 in
/-- The body at any point: the inputs' buffers hold their blocks; the point's number says which case it is in; an
    output buffer the case adds to holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 64 = 0
  · have h1 : t.val % 8 = 0 := by omega
    have ht : t.val = 0 := by omega
    rw [out2At_reset m c t h1, out3At_zero m c t ht]
    iintro ⟨HΦ, Ho, ⟨%d0, H0⟩, ⟨%d1, H1⟩, ⟨%d2, H2⟩, ⟨%d3, H3⟩⟩
    iapply ((kernelRunA c (grid0.coords t) _ _ _ _ _ _ _ _ ((hcond0_0 t).mpr h0) ((hcond0_1 t).mpr h1) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have ht : t.val ≠ 0 := by omega
    by_cases h1 : t.val % 8 = 0
    · rw [out2At_reset m c t h1, out3At_succ m c t ht]
      simp only [before0_3_succ m c t ht]
      iintro ⟨HΦ, Ho, ⟨%d0, H0⟩, ⟨%d1, H1⟩, ⟨%d2, H2⟩, ⟨%d3, H3⟩⟩
      iapply ((kernelRunC c (grid0.coords t) _ _ _ _ _ _ _ _ (fun h => h0 ((hcond0_0 t).mp h)) ((hcond0_1 t).mpr h1) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [out2At_acc m c t h1, out3At_succ m c t ht]
      simp only [before0_2_acc m c t h1, before0_3_succ m c t ht]
      iintro ⟨HΦ, Ho, ⟨%d0, H0⟩, ⟨%d1, H1⟩, ⟨%d2, H2⟩, ⟨%d3, H3⟩⟩
      iapply ((kernelRunB c (grid0.coords t) _ _ _ _ _ _ _ _ (fun h => h0 ((hcond0_0 t).mp h)) (fun h => h1 ((hcond0_1 t).mp h)) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the proof data computes — an input its contents at entry, an output those
    overwritten by what the body left at each write-back — and every other unscoped buffer what it held at entry. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The two results as functions of the argument arrays, index by index, on the extended reals.

  `adj` is a 4096 × 4096 array of edges with two channels, `h` a 4096 × 150 matrix of node features. With
  `edge adj p q` the two channels of edge (p, q) added up,
    h_in  [q, d] = Σ_p edge adj p q · h[p, d]      (over the source nodes p)
    h_out [p, d] = Σ_q edge adj p q · h[q, d]      (over the target nodes q).
-/
import Idealize.ShloMosaic.PureOps.Ideal
import Idealize.ShloMosaic.Lib.ValueIdx

noncomputable section

namespace Cert.Spec

open Idealize.ShloMosaic Idealize.ShloMosaic.ValueIdx

/-- The adjacency array's index type, the feature matrix's. -/
abbrev AdjIdx := (⟨3, ![4096, 4096, 2]⟩ : Shape).Idx
abbrev MatIdx := (⟨2, ![4096, 150]⟩ : Shape).Idx

/-- Edge (p, q): its two channels added up. -/
def edge (adj : AdjIdx → EReal) (p q : Fin 4096) : EReal :=
  adj (ix3 p q (0 : Fin 2)) + adj (ix3 p q (1 : Fin 2))

/-- `h_in`: node q's features summed over its incoming edges. -/
def hIn (adj : AdjIdx → EReal) (h : MatIdx → EReal) : MatIdx → EReal := fun y =>
  ∑ p : Fin 4096, edge adj p (y 0) * h (ix2 p (y 1))

/-- `h_out`: node p's features summed over its outgoing edges. -/
def hOut (adj : AdjIdx → EReal) (h : MatIdx → EReal) : MatIdx → EReal := fun y =>
  ∑ q : Fin 4096, edge adj (y 0) q * h (ix2 q (y 1))

end Cert.Spec

end
-- ==== Proof.PayloadValue.lean ====
/-
  The kernel body's pure values read at an index, on the extended reals.

  One grid point holds a 512 × 512 × 2 tile of the adjacency array and two 512 × 150 blocks of the feature
  matrix. The tile's two channels are added up, giving a 512 × 512 matrix E of edges, E[r, k] = tile[r, k, 0] +
  tile[r, k, 1]. The row-block accumulator gains E · h (contraction over E's second axis), the column-block
  accumulator gains Eᵀ · h (contraction over E's FIRST axis, so the tile is read transposed). Both
  accumulators start from the zero matrix. On the extended reals every format change is the identity and a
  matrix product into a zero accumulator is the plain sum of products.
-/
import proofs.«108071_j58471684767748_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayloadValue

open Cert.KernelIdeal Cert.KernelIdeal.Gen Idealize.ShloMosaic Idealize.ShloMosaic.ValueIdx

/-! ## The two zero matrices -/

/-- The zero the output array is initialised with. -/
theorem pay1_apply (y : S4096x150.Idx) : k0_pay1 (F := Ideal) y = 0 :=
  Ideal.ofBits_zero_f32

/-- The zero the row-block accumulator is initialised with. -/
theorem pay2_apply (y : S512x150.Idx) : k0_pay2 (F := Ideal) y = 0 :=
  Ideal.ofBits_zero_f32

/-! ## The matrix of edges: one channel of the tile, then the two added up -/

/-- Channel 0 of the tile as a 512 × 512 matrix: the slice at offset (0, 0, 0) of extent (512, 512, 1), its unit
    axis dropped, reads the tile at (r, k, 0). -/
theorem chan0_apply {α : Type} (x : S512x512x2.Idx → α) (r k : Fin 512) :
    shapeCast S512x512 (extractStridedSlice S512x512x1 ![0, 0, 0] x slices_S512x512x2_o0_0_0_S512x512x1)
      shapeCasts_S512x512x1_S512x512 (ix2 r k) = x (ix3 r k (0 : Fin 2)) := by
  refine (shapeCast_apply _ shapeCasts_S512x512x1_S512x512 (ix2 r k) (ix3 r k (0 : Fin 1)) ?_).trans ?_
  · rw [Shape.rowMajor_val_three, Shape.rowMajor_val_two]
    show (r.val * 512 + k.val) * 1 + 0 = r.val * 512 + k.val
    omega
  · exact extractStridedSlice_apply _ x slices_S512x512x2_o0_0_0_S512x512x1 (ix3 r k (0 : Fin 1)) (ix3 r k (0 : Fin 2))
      (fun a => match a with
        | ⟨0, _⟩ => by show r.val = 0 + r.val; omega
        | ⟨1, _⟩ => by show k.val = 0 + k.val; omega
        | ⟨2, _⟩ => by show 0 = 0 + 0; omega)

/-- Channel 1 likewise: the slice at offset (0, 0, 1) reads the tile at (r, k, 1). -/
theorem chan1_apply {α : Type} (x : S512x512x2.Idx → α) (r k : Fin 512) :
    shapeCast S512x512 (extractStridedSlice S512x512x1 ![0, 0, 1] x slices_S512x512x2_o0_0_1_S512x512x1)
      shapeCasts_S512x512x1_S512x512 (ix2 r k) = x (ix3 r k (1 : Fin 2)) := by
  refine (shapeCast_apply _ shapeCasts_S512x512x1_S512x512 (ix2 r k) (ix3 r k (0 : Fin 1)) ?_).trans ?_
  · rw [Shape.rowMajor_val_three, Shape.rowMajor_val_two]
    show (r.val * 512 + k.val) * 1 + 0 = r.val * 512 + k.val
    omega
  · exact extractStridedSlice_apply _ x slices_S512x512x2_o0_0_1_S512x512x1 (ix3 r k (0 : Fin 1)) (ix3 r k (1 : Fin 2))
      (fun a => match a with
        | ⟨0, _⟩ => by show r.val = 0 + r.val; omega
        | ⟨1, _⟩ => by show k.val = 0 + k.val; omega
        | ⟨2, _⟩ => by show 1 = 1 + 0; omega)

/-- The matrix of edges at (r, k): the tile's two channels added up. -/
theorem pay3_apply (x0 : Vec Ideal S512x512x2 .f32) (r k : Fin 512) :
    k0_pay3 x0 (ix2 r k) = x0 (ix3 r k (0 : Fin 2)) + x0 (ix3 r k (1 : Fin 2)) := by
  unfold k0_pay3
  refine (truncf_apply (φ := .f32) (ψ := .bf16) _ bitsLt_bf16_f32 (ix2 r k)).trans ?_
  refine (addf_apply (φ := .f32) _ _ (ix2 r k)).trans ?_
  rw [chan0_apply, chan1_apply]

/-! ## The two matrix products into the zero accumulator

Dimension numbers [1] × [0]: the left operand's second axis is contracted with the right operand's first; the
result's row is the left operand's row, its column the right operand's column. -/

theorem lhsR_0 (i : S512x150.Idx) (q : dot_S512x512_S512x150_S512x150_1_0_0_1_n_n.contr.Idx) :
    (dot_S512x512_S512x150_S512x150_1_0_0_1_n_n.lhsIdx i q 0).val = (i 0).val := by
  unfold DotDims.lhsIdx
  rw [dif_neg (show ¬(0 : Fin S512x512.rank) ∈ dot_S512x512_S512x150_S512x150_1_0_0_1_n_n.lhsBatch by decide), dif_pos (show (0 : Fin S512x512.rank) ∈ dot_S512x512_S512x150_S512x150_1_0_0_1_n_n.lhsNonContracting by decide)]
  rfl
theorem lhsR_1 (i : S512x150.Idx) (q : dot_S512x512_S512x150_S512x150_1_0_0_1_n_n.contr.Idx) :
    (dot_S512x512_S512x150_S512x150_1_0_0_1_n_n.lhsIdx i q 1).val = (q ⟨0, by decide⟩).val :=
  dot_S512x512_S512x150_S512x150_1_0_0_1_n_n.lhsIdx_val_of_single rfl i q
theorem rhsR_0 (i : S512x150.Idx) (q : dot_S512x512_S512x150_S512x150_1_0_0_1_n_n.contr.Idx) :
    (dot_S512x512_S512x150_S512x150_1_0_0_1_n_n.rhsIdx i q 0).val = (q ⟨0, by decide⟩).val :=
  dot_S512x512_S512x150_S512x150_1_0_0_1_n_n.rhsIdx_val_of_single rfl i q
theorem rhsR_1 (i : S512x150.Idx) (q : dot_S512x512_S512x150_S512x150_1_0_0_1_n_n.contr.Idx) :
    (dot_S512x512_S512x150_S512x150_1_0_0_1_n_n.rhsIdx i q 1).val = (i 1).val := by
  unfold DotDims.rhsIdx
  rw [dif_neg (show ¬(1 : Fin S512x150.rank) ∈ dot_S512x512_S512x150_S512x150_1_0_0_1_n_n.rhsBatch by decide), dif_pos (show (1 : Fin S512x150.rank) ∈ dot_S512x512_S512x150_S512x150_1_0_0_1_n_n.rhsNonContracting by decide)]
  rfl

/-- A · B into the zero matrix, at (r, d): the sum over k of A[r, k] · B[k, d]. -/
theorem matmulR_apply (A : FVec Ideal S512x512 .bf16) (B : FVec Ideal S512x150 .bf16) (r : Fin 512) (d : Fin 150) :
    matmul dot_S512x512_S512x150_S512x150_1_0_0_1_n_n none A B (constant (F := Ideal) S512x150 .f32 0x00000000#32) (ix2 r d)
      = ∑ k : Fin 512, A (ix2 r k) * B (ix2 k d) := by
  refine (Ideal.matmul_constant_zero_apply dot_S512x512_S512x150_S512x150_1_0_0_1_n_n none A B (ix2 r d)).trans ?_
  rw [← Equiv.sum_comp (contrEquiv1 dot_S512x512_S512x150_S512x150_1_0_0_1_n_n 512 rfl rfl).symm]
  refine Finset.sum_congr rfl fun k _ => ?_
  have hk := contrEquiv1_symm_val dot_S512x512_S512x150_S512x150_1_0_0_1_n_n 512 rfl rfl k
  have el : dot_S512x512_S512x150_S512x150_1_0_0_1_n_n.lhsIdx (ix2 r d) ((contrEquiv1 dot_S512x512_S512x150_S512x150_1_0_0_1_n_n 512 rfl rfl).symm k) = ix2 r k := funext fun a => Fin.ext (by
    match a with
    | ⟨0, _⟩ => exact lhsR_0 _ _
    | ⟨1, _⟩ => exact (lhsR_1 _ _).trans hk)
  have er : dot_S512x512_S512x150_S512x150_1_0_0_1_n_n.rhsIdx (ix2 r d) ((contrEquiv1 dot_S512x512_S512x150_S512x150_1_0_0_1_n_n 512 rfl rfl).symm k) = ix2 k d := funext fun a => Fin.ext (by
    match a with
    | ⟨0, _⟩ => exact (rhsR_0 _ _).trans hk
    | ⟨1, _⟩ => exact rhsR_1 _ _)
  rw [el, er]

/-! Dimension numbers [0] × [0]: the left operand's FIRST axis is contracted with the right operand's first; the
result's row is the left operand's COLUMN. -/

theorem lhsC_0 (i : S512x150.Idx) (q : dot_S512x512_S512x150_S512x150_0_0_1_1_n_n.contr.Idx) :
    (dot_S512x512_S512x150_S512x150_0_0_1_1_n_n.lhsIdx i q 0).val = (q ⟨0, by decide⟩).val :=
  dot_S512x512_S512x150_S512x150_0_0_1_1_n_n.lhsIdx_val_of_single rfl i q
theorem lhsC_1 (i : S512x150.Idx) (q : dot_S512x512_S512x150_S512x150_0_0_1_1_n_n.contr.Idx) :
    (dot_S512x512_S512x150_S512x150_0_0_1_1_n_n.lhsIdx i q 1).val = (i 0).val := by
  unfold DotDims.lhsIdx
  rw [dif_neg (show ¬(1 : Fin S512x512.rank) ∈ dot_S512x512_S512x150_S512x150_0_0_1_1_n_n.lhsBatch by decide), dif_pos (show (1 : Fin S512x512.rank) ∈ dot_S512x512_S512x150_S512x150_0_0_1_1_n_n.lhsNonContracting by decide)]
  rfl
theorem rhsC_0 (i : S512x150.Idx) (q : dot_S512x512_S512x150_S512x150_0_0_1_1_n_n.contr.Idx) :
    (dot_S512x512_S512x150_S512x150_0_0_1_1_n_n.rhsIdx i q 0).val = (q ⟨0, by decide⟩).val :=
  dot_S512x512_S512x150_S512x150_0_0_1_1_n_n.rhsIdx_val_of_single rfl i q
theorem rhsC_1 (i : S512x150.Idx) (q : dot_S512x512_S512x150_S512x150_0_0_1_1_n_n.contr.Idx) :
    (dot_S512x512_S512x150_S512x150_0_0_1_1_n_n.rhsIdx i q 1).val = (i 1).val := by
  unfold DotDims.rhsIdx
  rw [dif_neg (show ¬(1 : Fin S512x150.rank) ∈ dot_S512x512_S512x150_S512x150_0_0_1_1_n_n.rhsBatch by decide), dif_pos (show (1 : Fin S512x150.rank) ∈ dot_S512x512_S512x150_S512x150_0_0_1_1_n_n.rhsNonContracting by decide)]
  rfl

/-- Aᵀ · B into the zero matrix, at (q, d): the sum over k of A[k, q] · B[k, d]. -/
theorem matmulC_apply (A : FVec Ideal S512x512 .bf16) (B : FVec Ideal S512x150 .bf16) (q : Fin 512) (d : Fin 150) :
    matmul dot_S512x512_S512x150_S512x150_0_0_1_1_n_n none A B (constant (F := Ideal) S512x150 .f32 0x00000000#32) (ix2 q d)
      = ∑ k : Fin 512, A (ix2 k q) * B (ix2 k d) := by
  refine (Ideal.matmul_constant_zero_apply dot_S512x512_S512x150_S512x150_0_0_1_1_n_n none A B (ix2 q d)).trans ?_
  rw [← Equiv.sum_comp (contrEquiv1 dot_S512x512_S512x150_S512x150_0_0_1_1_n_n 512 rfl rfl).symm]
  refine Finset.sum_congr rfl fun k _ => ?_
  have hk := contrEquiv1_symm_val dot_S512x512_S512x150_S512x150_0_0_1_1_n_n 512 rfl rfl k
  have el : dot_S512x512_S512x150_S512x150_0_0_1_1_n_n.lhsIdx (ix2 q d) ((contrEquiv1 dot_S512x512_S512x150_S512x150_0_0_1_1_n_n 512 rfl rfl).symm k) = ix2 k q := funext fun a => Fin.ext (by
    match a with
    | ⟨0, _⟩ => exact (lhsC_0 _ _).trans hk
    | ⟨1, _⟩ => exact lhsC_1 _ _)
  have er : dot_S512x512_S512x150_S512x150_0_0_1_1_n_n.rhsIdx (ix2 q d) ((contrEquiv1 dot_S512x512_S512x150_S512x150_0_0_1_1_n_n 512 rfl rfl).symm k) = ix2 k d := funext fun a => Fin.ext (by
    match a with
    | ⟨0, _⟩ => exact (rhsC_0 _ _).trans hk
    | ⟨1, _⟩ => exact rhsC_1 _ _)
  rw [el, er]

/-! ## The two accumulator updates -/

/-- The row-block accumulator's new value at (r, d): its old value plus the sum over the tile's columns k of
    edge (r, k) times the column block's feature (k, d). -/
theorem pay4_apply (x0 : Vec Ideal S512x512x2 .f32) (hj acc : Vec Ideal S512x150 .f32) (r : Fin 512) (d : Fin 150) :
    k0_pay4 x0 hj acc (ix2 r d)
      = acc (ix2 r d) + ∑ k : Fin 512, (x0 (ix3 r k (0 : Fin 2)) + x0 (ix3 r k (1 : Fin 2))) * hj (ix2 k d) := by
  unfold k0_pay4
  refine (addf_apply (φ := .f32) _ _ (ix2 r d)).trans ?_
  rw [shapeCast_self, matmulR_apply]
  refine congrArg (acc (ix2 r d) + ·) (Finset.sum_congr rfl fun k _ => ?_)
  rw [pay3_apply]
  rfl

/-- The column-block accumulator's new value at (q, d): its old value plus the sum over the tile's rows k of
    edge (k, q) times the row block's feature (k, d). -/
theorem pay5_apply (x0 : Vec Ideal S512x512x2 .f32) (hi acc : Vec Ideal S512x150 .f32) (q : Fin 512) (d : Fin 150) :
    k0_pay5 x0 hi acc (ix2 q d)
      = acc (ix2 q d) + ∑ k : Fin 512, (x0 (ix3 k q (0 : Fin 2)) + x0 (ix3 k q (1 : Fin 2))) * hi (ix2 k d) := by
  unfold k0_pay5
  refine (addf_apply (φ := .f32) _ _ (ix2 q d)).trans ?_
  rw [shapeCast_self, matmulC_apply]
  refine congrArg (acc (ix2 q d) + ·) (Finset.sum_congr rfl fun k _ => ?_)
  rw [pay3_apply]
  rfl

end Cert.KernelIdeal.PayloadValue

end
-- ==== Proof.IdealPoint.lean ====
/-
  One grid point, read at an index on the extended reals.

  Point t of the 8 × 8 grid is (I, J) = (t / 8, t % 8). Its tile of the adjacency array holds edges
  (512·I + r, 512·J + k); the feature matrix is staged whole; the body reads its rows 512·I.. and 512·J.. . With
  `eAt p q` the summed edge (p, q) and `hAt p d` feature d of node p (both total: zero outside the arrays),
    the `h_out` block takes   acc[r, d] + Σ_k eAt (512·I + r) (512·J + k) · hAt (512·J + k) d          (`outStep_apply`)
    the `h_in` array takes, on rows 512·J ≤ q < 512·J + 512,   acc[q, d] + Σ_k eAt (512·I + k) q · hAt (512·I + k) d
    and keeps every other row                                                                          (`inStep_apply`).
-/
import proofs.«108071_j58471684767748_1_alg».proof.Proof.IdealFrame
import proofs.«108071_j58471684767748_1_alg».proof.Proof.Spec
import proofs.«108071_j58471684767748_1_alg».proof.Proof.PayloadValue
import Idealize.ShloMosaic.Lib.Pipeline.Value
import Idealize.ShloMosaic.Lib.ValueIdx

set_option maxRecDepth 16384

noncomputable section

namespace Cert.KernelIdeal.BodyValue

open Cert.KernelIdeal Cert.KernelIdeal.Gen Cert.KernelIdeal.Body Cert.KernelIdeal.PayloadValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Edge (p, q) of the adjacency argument, by natural numbers: zero outside the array. -/
def eAt (c : Dev nD) (p q : ℕ) : EReal :=
  if h : p < 4096 ∧ q < 4096 then Cert.Spec.edge (V m c main_arg0) ⟨p, h.1⟩ ⟨q, h.2⟩ else 0

/-- Feature d of node p of the feature argument, the node by a natural number: zero outside the matrix. -/
def hAt (c : Dev nD) (p : ℕ) (d : Fin 150) : EReal :=
  if h : p < 4096 then (V m c main_arg1) (ix2 ⟨p, h⟩ d) else 0

theorem eAt_of_lt (c : Dev nD) (p q : Fin 4096) : eAt m c p.val q.val = Cert.Spec.edge (V m c main_arg0) p q :=
  dif_pos ⟨p.isLt, q.isLt⟩

theorem hAt_of_lt (c : Dev nD) (p : Fin 4096) (d : Fin 150) : hAt m c p.val d = (V m c main_arg1) (ix2 p d) :=
  dif_pos p.isLt

/-! ## Where point t's blocks and offsets are — decided over the grid -/

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem off1_eq : ∀ t : Fin cfg0.N, k0_off1 (grid0.coords t) = ![512 * (t.val / 8), 0] :=
  (by decide +kernel : ∀ t : Fin grid0.N, k0_off1 (grid0.coords t) = ![512 * (t.val / 8), 0])
theorem off2_eq : ∀ t : Fin cfg0.N, k0_off2 (grid0.coords t) = ![512 * (t.val % 8), 0] :=
  (by decide +kernel : ∀ t : Fin grid0.N, k0_off2 (grid0.coords t) = ![512 * (t.val % 8), 0])

/-! ## The inputs' blocks read at an index -/

/-- Entry (r, k) of point t's tile, its two channels added, is edge (512·I + r, 512·J + k). -/
theorem tile_apply (c : Dev nD) (t : Fin cfg0.N) (r k : Fin 512) (x0 : Vec Ideal S512x512x2 .f32) (hx : x0 = iblk m c 0 t) :
    x0 (ix3 r k (0 : Fin 2)) + x0 (ix3 r k (1 : Fin 2))
      = eAt m c (512 * (t.val / 8) + r.val) (512 * (t.val % 8) + k.val) := by
  have hN : t.val < 64 := lt_of_lt_of_eq t.isLt (show cfg0.N = 64 from N_0)
  have hr := r.isLt
  have hk := k.isLt
  have hi := idx0 t
  subst hx
  unfold eAt
  rw [dif_pos ⟨by omega, by omega⟩]
  unfold Cert.Spec.edge iblk
  rw [View.read_apply, View.read_apply]
  have key : ∀ e' : Fin 2, V m c main_arg0 (((cfg0.win 0).blk t).view.emb (ix3 r k e'))
      = V m c main_arg0 (ix3 ⟨512 * (t.val / 8) + r.val, by omega⟩ ⟨512 * (t.val % 8) + k.val, by omega⟩ e') := fun e' =>
    congrArg _ (funext fun a => Fin.ext (by
      match a with
      | ⟨0, _⟩ => show win0_0.index t 0 * 512 + 1 * r.val = 512 * (t.val / 8) + r.val; rw [hi.1]; omega
      | ⟨1, _⟩ => show win0_0.index t 1 * 512 + 1 * k.val = 512 * (t.val % 8) + k.val; rw [hi.2.1]; omega
      | ⟨2, _⟩ => show win0_0.index t 2 * 2 + 1 * e'.val = e'.val; rw [hi.2.2]; omega))
  exact congrArg₂ (· + ·) (key 0) (key 1)

/-- Row k of the 512 rows of the staged feature matrix that start at row o is node o + k. -/
theorem hrow_apply (c : Dev nD) (t : Fin cfg0.N) (off : Fin 2 → ℕ) (o : ℕ) (hoff : off = ![o, 0])
    (inb : ∀ a, off a + S512x150.size a ≤ S4096x150.size a) (k : Fin 512) (d : Fin 150)
    (x1 : Vec Ideal S4096x150 .f32) (hx : x1 = iblk m c 1 t) :
    rowsOf x1 off inb (ix2 k d) = hAt m c (o + k.val) d := by
  subst hoff
  have hk := k.isLt
  have ho : o + 512 ≤ 4096 := inb 0
  have hi := idx1 t
  subst hx
  unfold hAt rowsOf View.ld
  rw [dif_pos (by omega)]
  unfold iblk
  rw [View.read_apply]
  show V m c main_arg1 _ = V m c main_arg1 _
  refine congrArg _ (funext fun a => Fin.ext ?_)
  match a with
  | ⟨0, _⟩ => show win0_1.index t 0 * 4096 + 1 * (o + 1 * k.val) = o + k.val; rw [hi.1]; omega
  | ⟨1, _⟩ => show win0_1.index t 1 * 150 + 1 * (0 + 1 * d.val) = d.val; rw [hi.2]; omega

/-- An entry of any 4096-row array at row o + q of the 512 rows that start at row o. -/
theorem rows_apply (acc : Vec Ideal S4096x150 .f32) (off : Fin 2 → ℕ) (o : ℕ) (hoff : off = ![o, 0])
    (inb : ∀ a, off a + S512x150.size a ≤ S4096x150.size a) (q : Fin 512) (d : Fin 150) (y : S4096x150.Idx)
    (h0 : (y 0).val = o + q.val) (h1 : (y 1).val = d.val) :
    rowsOf acc off inb (ix2 q d) = acc y := by
  subst hoff
  unfold rowsOf View.ld
  refine congrArg _ (funext fun a => Fin.ext ?_)
  match a with
  | ⟨0, _⟩ => show o + 1 * q.val = (y 0).val; omega
  | ⟨1, _⟩ => show 0 + 1 * d.val = (y 1).val; omega

/-! ## The two steps at an index -/

theorem outStep_apply (c : Dev nD) (t : Fin cfg0.N) (acc : Vec Ideal S512x150 .f32) (r : Fin 512) (d : Fin 150) :
    outStep (grid0.coords t) (iblk m c 0 t) (iblk m c 1 t) acc (ix2 r d)
      = acc (ix2 r d) + ∑ k : Fin 512, eAt m c (512 * (t.val / 8) + r.val) (512 * (t.val % 8) + k.val) * hAt m c (512 * (t.val % 8) + k.val) d := by
  unfold outStep
  rw [pay4_apply]
  refine congrArg (_ + ·) (Finset.sum_congr rfl fun k _ => ?_)
  rw [tile_apply m c t r k _ rfl, hrow_apply m c t _ (512 * (t.val % 8)) (off2_eq t) _ k d _ rfl]

theorem inStep_apply (c : Dev nD) (t : Fin cfg0.N) (acc : Vec Ideal S4096x150 .f32) (q : Fin 4096) (d : Fin 150) :
    inStep (grid0.coords t) (iblk m c 0 t) (iblk m c 1 t) acc (ix2 q d)
      = if 512 * (t.val % 8) ≤ q.val ∧ q.val < 512 * (t.val % 8) + 512 then
          acc (ix2 q d) + ∑ k : Fin 512, eAt m c (512 * (t.val / 8) + k.val) q.val * hAt m c (512 * (t.val / 8) + k.val) d
        else acc (ix2 q d) := by
  have e0 : k0_off2 (grid0.coords t) 0 = 512 * (t.val % 8) := congrFun (off2_eq t) 0
  have e1 : k0_off2 (grid0.coords t) 1 = 0 := congrFun (off2_eq t) 1
  have hd := d.isLt
  unfold inStep
  by_cases hq : 512 * (t.val % 8) ≤ q.val ∧ q.val < 512 * (t.val % 8) + 512
  · have h : ∀ a, (k0_off2 (grid0.coords t)) a ≤ ((ix2 q d : S4096x150.Idx) a).val
        ∧ ((ix2 q d : S4096x150.Idx) a).val < (k0_off2 (grid0.coords t)) a + S512x150.size a := fun a => by
      match a with
      | ⟨0, _⟩ => show k0_off2 (grid0.coords t) 0 ≤ q.val ∧ q.val < k0_off2 (grid0.coords t) 0 + 512; rw [e0]; exact hq
      | ⟨1, _⟩ => show k0_off2 (grid0.coords t) 1 ≤ d.val ∧ d.val < k0_off2 (grid0.coords t) 1 + 150; rw [e1]; omega
    rw [dif_pos h, if_pos hq]
    let q' : Fin 512 := ⟨q.val - 512 * (t.val % 8), by omega⟩
    have el : Rect.unitLocal (s := S4096x150) (off := k0_off2 (grid0.coords t)) (size := S512x150.size) (ix2 q d) h = ix2 q' d :=
      funext fun a => Fin.ext (by
        match a with
        | ⟨0, _⟩ => show q.val - k0_off2 (grid0.coords t) 0 = q.val - 512 * (t.val % 8); rw [e0]
        | ⟨1, _⟩ => show d.val - k0_off2 (grid0.coords t) 1 = d.val; rw [e1]; omega)
    rw [el, pay5_apply]
    have ea : rowsOf acc (k0_off2 (grid0.coords t)) (k0_off2_inb (grid0.coords t)) (ix2 q' d) = acc (ix2 q d) :=
      rows_apply acc _ (512 * (t.val % 8)) (off2_eq t) _ q' d (ix2 q d) (by show q.val = 512 * (t.val % 8) + (q.val - 512 * (t.val % 8)); omega) rfl
    rw [ea]
    refine congrArg (_ + ·) (Finset.sum_congr rfl fun k _ => ?_)
    have et := tile_apply m c t k q' _ rfl
    have eq' : 512 * (t.val % 8) + q'.val = q.val := by show 512 * (t.val % 8) + (q.val - 512 * (t.val % 8)) = q.val; omega
    rw [eq'] at et
    rw [et, hrow_apply m c t _ (512 * (t.val / 8)) (off1_eq t) _ k d _ rfl]
  · rw [if_neg hq, dif_neg]
    intro hall
    have h0 : k0_off2 (grid0.coords t) 0 ≤ q.val ∧ q.val < k0_off2 (grid0.coords t) 0 + 512 := hall 0
    rw [e0] at h0
    exact hq h0

end Cert.KernelIdeal.BodyValue

end
-- ==== Proof.RunningSums.lean ====
/-
  Sums grown a block at a time.

  A sum over 4096 positions is built in 8 steps of 512 positions. The 64 points of an 8 × 8 grid are visited in
  the order n = 8·I + J, I = n / 8 the row block and J = n % 8 the column block. Two bookkeeping patterns occur.
  A quantity indexed by a row q is added to at point n only when q lies in the point's column block, the new
  summand covering the positions of the point's row block: after point n its rows in column block c have seen
  row blocks 0 … I if c ≤ J and 0 … I − 1 otherwise. A quantity that is reset at the first point of each grid
  row and otherwise continues from the point before has, after point n, seen column blocks 0 … J of row block I.
-/
import Mathlib.Algebra.BigOperators.Fin

namespace RunningSums

open Finset

variable {M : Type*} [AddCommMonoid M]

/-- A sum over the first B·(j+1) positions is the sum over the first B·j plus the next block of B. -/
theorem grow (g : ℕ → M) (B j : ℕ) :
    ∑ p ∈ range (B * (j + 1)), g p = ∑ p ∈ range (B * j), g p + ∑ k : Fin B, g (B * j + k.val) := by
  rw [Nat.mul_succ, Finset.sum_range_add]
  exact congrArg (∑ p ∈ range (B * j), g p + ·) (Finset.sum_range fun x => g (B * j + x))

/-- How many row blocks have been added to the rows of column block q / 512 once point n is done. -/
def cnt (n q : ℕ) : ℕ := if q / 512 ≤ n % 8 then n / 8 + 1 else n / 8

/-- A quantity per row q that point n adds to exactly on the rows of ITS column block (n % 8), the summand's
    positions those of ITS row block (n / 8), starting from zero: after point n it is the sum of the first
    512 · cnt n q positions. -/
theorem cols_sum (u : ℕ → ℕ → M) (g : ℕ → ℕ → M)
    (h0 : ∀ q, q < 4096 → u 0 q = if 512 * (0 % 8) ≤ q ∧ q < 512 * (0 % 8) + 512 then 0 + ∑ k : Fin 512, g q (512 * (0 / 8) + k.val) else 0)
    (hs : ∀ n, n + 1 < 64 → ∀ q, q < 4096 → u (n + 1) q = if 512 * ((n + 1) % 8) ≤ q ∧ q < 512 * ((n + 1) % 8) + 512 then u n q + ∑ k : Fin 512, g q (512 * ((n + 1) / 8) + k.val) else u n q) :
    ∀ n, n < 64 → ∀ q, q < 4096 → u n q = ∑ p ∈ range (512 * cnt n q), g q p := by
  intro n
  induction n with
  | zero =>
    intro _ q hq
    rw [h0 q hq]
    by_cases hc : 512 * (0 % 8) ≤ q ∧ q < 512 * (0 % 8) + 512
    · -- q lies in column block 0: one block, row block 0, has been added to the empty sum
      have h1 : cnt 0 q = 0 + 1 := by unfold cnt; split <;> omega
      rw [if_pos hc, h1, grow (g q) 512 0, Nat.zero_div, Nat.mul_zero, Finset.range_zero, Finset.sum_empty]
    · -- q lies in a later column block: nothing yet
      have h1 : cnt 0 q = 0 := by unfold cnt; split <;> omega
      rw [if_neg hc, h1, Nat.mul_zero, Finset.range_zero, Finset.sum_empty]
  | succ n ih =>
    intro hn q hq
    rw [hs n hn q hq, ih (by omega) q hq]
    by_cases hc : 512 * ((n + 1) % 8) ≤ q ∧ q < 512 * ((n + 1) % 8) + 512
    · -- q lies in the point's column block: so far it has seen the row blocks before the point's, and gains that one
      have h1 : cnt n q = (n + 1) / 8 := by unfold cnt; split <;> omega
      have h2 : cnt (n + 1) q = (n + 1) / 8 + 1 := by unfold cnt; split <;> omega
      rw [if_pos hc, h1, h2, grow (g q) 512 ((n + 1) / 8)]
    · -- q lies in another column block: its count does not change
      have h3 : cnt (n + 1) q = cnt n q := by unfold cnt; split <;> split <;> omega
      rw [if_neg hc, h3]

/-- After the last point every row has seen all 8 row blocks. -/
theorem cols_sum_last (u : ℕ → ℕ → M) (g : ℕ → ℕ → M)
    (h0 : ∀ q, q < 4096 → u 0 q = if 512 * (0 % 8) ≤ q ∧ q < 512 * (0 % 8) + 512 then 0 + ∑ k : Fin 512, g q (512 * (0 / 8) + k.val) else 0)
    (hs : ∀ n, n + 1 < 64 → ∀ q, q < 4096 → u (n + 1) q = if 512 * ((n + 1) % 8) ≤ q ∧ q < 512 * ((n + 1) % 8) + 512 then u n q + ∑ k : Fin 512, g q (512 * ((n + 1) / 8) + k.val) else u n q) :
    ∀ q, q < 4096 → u 63 q = ∑ p ∈ range 4096, g q p := by
  intro q hq
  have e : 512 * cnt 63 q = 4096 := by unfold cnt; split <;> omega
  rw [cols_sum u g h0 hs 63 (by omega) q hq, e]

/-- The first point of a grid row: the empty sum plus column block 0. -/
theorem reset (g : ℕ → ℕ → M) (n : ℕ) (h : n % 8 = 0) :
    0 + ∑ k : Fin 512, g (n / 8) (512 * (n % 8) + k.val) = ∑ p ∈ range (512 * (n % 8 + 1)), g (n / 8) p := by
  rw [grow (g (n / 8)) 512 (n % 8), h, Nat.mul_zero, Finset.range_zero, Finset.sum_empty]

/-- A quantity that is reset at the first point of each row of the grid (n % 8 = 0) and otherwise grows from the
    point before, the summand's positions those of the point's column block: after point n it is the sum of the
    first 512 · (n % 8 + 1) positions of row block n / 8's summand. -/
theorem rows_sum (v : ℕ → M) (g : ℕ → ℕ → M)
    (hr : ∀ n, n < 64 → n % 8 = 0 → v n = 0 + ∑ k : Fin 512, g (n / 8) (512 * (n % 8) + k.val))
    (ha : ∀ n, n < 64 → n % 8 ≠ 0 → v n = v (n - 1) + ∑ k : Fin 512, g (n / 8) (512 * (n % 8) + k.val)) :
    ∀ n, n < 64 → v n = ∑ p ∈ range (512 * (n % 8 + 1)), g (n / 8) p := by
  intro n
  induction n with
  | zero =>
    intro hn
    rw [hr 0 hn rfl]
    exact reset g 0 rfl
  | succ m ih =>
    intro hn
    by_cases h8 : (m + 1) % 8 = 0
    · rw [hr (m + 1) hn h8]
      exact reset g (m + 1) h8
    · -- the point before is in the same grid row, one column block to the left
      have e1 : m / 8 = (m + 1) / 8 := by omega
      have e2 : m % 8 + 1 = (m + 1) % 8 := by omega
      rw [ha (m + 1) hn h8, Nat.add_sub_cancel, ih (by omega), e1, e2, grow (g ((m + 1) / 8)) 512 ((m + 1) % 8)]

/-- At the last point of a grid row all 8 column blocks have been seen. -/
theorem rows_sum_last (v : ℕ → M) (g : ℕ → ℕ → M)
    (hr : ∀ n, n < 64 → n % 8 = 0 → v n = 0 + ∑ k : Fin 512, g (n / 8) (512 * (n % 8) + k.val))
    (ha : ∀ n, n < 64 → n % 8 ≠ 0 → v n = v (n - 1) + ∑ k : Fin 512, g (n / 8) (512 * (n % 8) + k.val)) :
    ∀ n, n < 64 → n % 8 = 7 → v n = ∑ p ∈ range 4096, g (n / 8) p := by
  intro n hn h7
  have e : 512 * (n % 8 + 1) = 4096 := by omega
  rw [rows_sum v g hr ha n hn, e]

end RunningSums
-- ==== Proof.IdealSums.lean ====
/-
  What the two output buffers hold after each point, in closed form on the extended reals.

  Inside row block I of the grid the `h_out` block's entry (r, d) grows, column block by column block, into the sum over
  all 4096 target nodes q of  edge (512·I + r, q) · h[q, d]: complete after the row's last point (`out2_done`).
  The `h_in` array's entry (q, d) is added to once in every row block, at the point of q's own column block, by the
  512 source nodes of that row block: after the last point it is the sum over all 4096 source nodes p of
  edge (p, q) · h[p, d] (`out3_done`). Only the associativity of + is used, so infinite entries do no harm.
-/
import proofs.«108071_j58471684767748_1_alg».proof.Proof.IdealPoint
import proofs.«108071_j58471684767748_1_alg».proof.Proof.RunningSums

set_option maxRecDepth 16384

noncomputable section

namespace Cert.KernelIdeal.BodyValue

open Cert.KernelIdeal Cert.KernelIdeal.Gen Cert.KernelIdeal.Body Cert.KernelIdeal.PayloadValue
open Idealize.ShloMosaic Idealize.ShloMosaic.TcCoe Idealize.ShloMosaic.ValueIdx Idealize.SL.Sem
open Finset

variable (m : (ℓ : Loc nD τ sig) → Buf (Elt Ideal) ℓ) (ρ : Dev nD → PrngReg)

/-- After the last point of a row of the grid the `h_out` block holds, at (r, d), node 512·I + r's outgoing sum. -/
theorem out2_done (c : Dev nD) (t : Fin cfg0.N) (h7 : t.val % 8 = 7) (r : Fin 512) (d : Fin 150) :
    out2At m c t.val t.isLt (ix2 r d) = ∑ p ∈ range 4096, eAt m c (512 * (t.val / 8) + r.val) p * hAt m c p d := by
  have hN : cfg0.N = 64 := N_0
  let v : ℕ → EReal := fun n => if h : n < cfg0.N then out2At m c n h (ix2 r d) else 0
  let g : ℕ → ℕ → EReal := fun I p => eAt m c (512 * I + r.val) p * hAt m c p d
  have hv : ∀ n (h : n < cfg0.N), v n = out2At m c n h (ix2 r d) := fun n h => dif_pos h
  have hr' : ∀ n, n < 64 → n % 8 = 0 → v n = 0 + ∑ k : Fin 512, g (n / 8) (512 * (n % 8) + k.val) := by
    intro n hn h0
    have hn' : n < cfg0.N := hN ▸ hn
    rw [hv n hn', out2At_reset m c ⟨n, hn'⟩ h0, outStep_apply, pay2_apply]
  have ha' : ∀ n, n < 64 → n % 8 ≠ 0 → v n = v (n - 1) + ∑ k : Fin 512, g (n / 8) (512 * (n % 8) + k.val) := by
    intro n hn h0
    have hn' : n < cfg0.N := hN ▸ hn
    rw [hv n hn', hv (n - 1) (Nat.lt_of_le_of_lt (Nat.sub_le _ _) hn'), out2At_acc m c ⟨n, hn'⟩ h0, outStep_apply]
  have key := RunningSums.rows_sum_last v g hr' ha' t.val (hN ▸ t.isLt) h7
  rw [hv t.val t.isLt] at key
  exact key

/-- After the last point the `h_in` array holds, at (q, d), node q's incoming sum. -/
theorem out3_done (c : Dev nD) (h63 : 63 < cfg0.N) (q : Fin 4096) (d : Fin 150) :
    out3At m c 63 h63 (ix2 q d) = ∑ p ∈ range 4096, eAt m c p q.val * hAt m c p d := by
  have hN : cfg0.N = 64 := N_0
  let u : ℕ → ℕ → EReal := fun n q' => if h : n < cfg0.N ∧ q' < 4096 then out3At m c n h.1 (ix2 ⟨q', h.2⟩ d) else 0
  let g : ℕ → ℕ → EReal := fun q' p => eAt m c p q' * hAt m c p d
  have hu : ∀ n q' (h : n < cfg0.N) (hq : q' < 4096), u n q' = out3At m c n h (ix2 ⟨q', hq⟩ d) := fun n q' h hq => dif_pos ⟨h, hq⟩
  have h0 : ∀ q', q' < 4096 → u 0 q' = if 512 * (0 % 8) ≤ q' ∧ q' < 512 * (0 % 8) + 512 then
      0 + ∑ k : Fin 512, g q' (512 * (0 / 8) + k.val) else 0 := by
    intro q' hq'
    have h0N : 0 < cfg0.N := hN ▸ (by decide : 0 < 64)
    rw [hu 0 q' h0N hq', out3At_zero m c ⟨0, h0N⟩ rfl, inStep_apply, pay1_apply]
  have hs : ∀ n, n + 1 < 64 → ∀ q', q' < 4096 → u (n + 1) q' = if 512 * ((n + 1) % 8) ≤ q' ∧ q' < 512 * ((n + 1) % 8) + 512 then
      u n q' + ∑ k : Fin 512, g q' (512 * ((n + 1) / 8) + k.val) else u n q' := by
    intro n hn q' hq'
    have hn' : n + 1 < cfg0.N := hN ▸ hn
    rw [hu (n + 1) q' hn' hq', hu n q' (Nat.lt_of_succ_lt hn') hq', out3At_succ m c ⟨n + 1, hn'⟩ (Nat.succ_ne_zero n), inStep_apply]
    rfl
  have key := RunningSums.cols_sum_last u g h0 hs q.val q.isLt
  rw [hu 63 q.val h63 q.isLt] at key
  exact key

end Cert.KernelIdeal.BodyValue

end
-- ==== Proof.IdealFinal.lean ====
/-
  The two result arrays after the run, on the extended reals.

  The `h_out` array is written back block by block: the block of row block I after the row's last point, by then node
  (512·I + r)'s outgoing sum at (r, d); the eight blocks tile the array, which so ends at `Spec.hOut` of the arguments.
  The `h_in` array is one block, written back once, after the last point, by then `Spec.hIn` of the arguments.
-/
import proofs.«108071_j58471684767748_1_alg».proof.Proof.IdealSums

set_option maxRecDepth 16384

noncomputable section

namespace Cert.KernelIdeal.BodyValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)
open Finset

variable (m : (ℓ : Loc nD τ sig) → Buf (Elt Ideal) ℓ) (ρ : Dev nD → PrngReg)

/-- The specification's two results of the argument arrays, as contents of the result arrays. -/
abbrev resOut (c : Dev nD) : Buf (Elt Ideal) ((c : Thread nD τ).loc main_v0_0) :=
  Cert.Spec.hOut (V m c main_arg0) (V m c main_arg1)
abbrev resIn (c : Dev nD) : Buf (Elt Ideal) ((c : Thread nD τ).loc main_v0_1) :=
  Cert.Spec.hIn (V m c main_arg0) (V m c main_arg1)

/-- The specification's sums over nodes are the sums over the first 4096 positions of the total accessors. -/
theorem hOut_apply (c : Dev nD) (p : Fin 4096) (d : Fin 150) :
    Cert.Spec.hOut (V m c main_arg0) (V m c main_arg1) (ix2 p d) = ∑ q ∈ range 4096, eAt m c p.val q * hAt m c q d := by
  unfold Cert.Spec.hOut
  rw [Finset.sum_range]
  exact Finset.sum_congr rfl fun q _ => by rw [eAt_of_lt, hAt_of_lt]

theorem hIn_apply (c : Dev nD) (q : Fin 4096) (d : Fin 150) :
    Cert.Spec.hIn (V m c main_arg0) (V m c main_arg1) (ix2 q d) = ∑ p ∈ range 4096, eAt m c p q.val * hAt m c p d := by
  unfold Cert.Spec.hIn
  rw [Finset.sum_range]
  exact Finset.sum_congr rfl fun p _ => by rw [eAt_of_lt, hAt_of_lt]

/-! ## Where the output blocks are — decided over the grid -/

theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem xsize2 : ∀ t : Fin cfg0.N, win0_2.xsize (grid0.coords t) 0 = 512 ∧ win0_2.xsize (grid0.coords t) 1 = 150 :=
  (by decide +kernel : ∀ t : Fin grid0.N, win0_2.xsize (grid0.coords t) 0 = 512 ∧ win0_2.xsize (grid0.coords t) 1 = 150)
theorem xsize3 : ∀ t : Fin cfg0.N, win0_3.xsize (grid0.coords t) 0 = 4096 ∧ win0_3.xsize (grid0.coords t) 1 = 150 :=
  (by decide +kernel : ∀ t : Fin grid0.N, win0_3.xsize (grid0.coords t) 0 = 4096 ∧ win0_3.xsize (grid0.coords t) 1 = 150)

/-! ## What each write-back writes -/

/-- The write-back after a row's last point writes the row block's rows of `Spec.hOut`. -/
theorem flushed2_eq (c : Dev nD) (t : Fin cfg0.N) (hf : (cfg0.win 2).flush t = true) :
    (dats m 0 c).flushed 2 t = ((cfg0.win 2).blk t).view.read (Elt Ideal) (resOut m c) := by
  have hN : t.val < 64 := lt_of_lt_of_eq t.isLt (show cfg0.N = 64 from N_0)
  have h7 : t.val % 8 = 7 := (flush0_2 t).mp hf
  have hi := idx2 t
  show (cfg0.win 2).cut (grid0.coords t) ((dats m 0 c).after 2 t) = _
  rw [after0_2]
  funext y
  obtain ⟨r, d, rfl⟩ : ∃ (r : Fin 512) (d : Fin 150), y = ix2 r d := ⟨y 0, y 1, eq_ix2 y⟩
  rw [View.read_apply]
  have hr := r.isLt
  have hemb : ((cfg0.win 2).blk t).view.emb (ix2 r d) = (ix2 (⟨512 * (t.val / 8) + r.val, by omega⟩ : Fin 4096) d : S4096x150.Idx) :=
    funext fun a => Fin.ext (by
      match a with
      | ⟨0, _⟩ => show win0_2.index t 0 * 512 + 1 * r.val = 512 * (t.val / 8) + r.val; rw [hi.1]; omega
      | ⟨1, _⟩ => show win0_2.index t 1 * 150 + 1 * d.val = d.val; rw [hi.2]; omega)
  show out2At m c t.val t.isLt (ix2 r d) = resOut m c (((cfg0.win 2).blk t).view.emb (ix2 r d))
  rw [hemb, out2_done m c t h7 r d]
  exact (hOut_apply m c ⟨512 * (t.val / 8) + r.val, by omega⟩ d).symm

/-- The one write-back of the `h_in` array writes `Spec.hIn`. -/
theorem flushed3_eq (c : Dev nD) (t : Fin cfg0.N) (hf : (cfg0.win 3).flush t = true) :
    (dats m 0 c).flushed 3 t = ((cfg0.win 3).blk t).view.read (Elt Ideal) (resIn m c) := by
  have hN : t.val < 64 := lt_of_lt_of_eq t.isLt (show cfg0.N = 64 from N_0)
  have h63 : t.val = 63 := by have := (flush0_3 t).mp hf; omega
  have hi := idx3 t
  show (cfg0.win 3).cut (grid0.coords t) ((dats m 0 c).after 3 t) = _
  rw [after0_3]
  funext y
  obtain ⟨q, d, rfl⟩ : ∃ (q : Fin 4096) (d : Fin 150), y = ix2 q d := ⟨y 0, y 1, eq_ix2 y⟩
  rw [View.read_apply]
  have hemb : ((cfg0.win 3).blk t).view.emb (ix2 q d) = (ix2 q d : S4096x150.Idx) :=
    funext fun a => Fin.ext (by
      match a with
      | ⟨0, _⟩ => show win0_3.index t 0 * 4096 + 1 * q.val = q.val; rw [hi.1]; omega
      | ⟨1, _⟩ => show win0_3.index t 1 * 150 + 1 * d.val = d.val; rw [hi.2]; omega)
  show out3At m c t.val t.isLt (ix2 q d) = resIn m c (((cfg0.win 3).blk t).view.emb (ix2 q d))
  rw [hemb]
  obtain ⟨n, hn⟩ := t
  obtain rfl : n = 63 := h63
  rw [out3_done m c hn q d]
  exact (hIn_apply m c q d).symm

/-! ## The arrays after the run -/

/-- The eight written-back blocks tile the `h_out` array, which ends at `Spec.hOut`. -/
theorem final2 (c : Dev nD) : (dats m 0 c).arrAt 2 cfg0.N = resOut m c :=
  (dats m 0 c).arrAt_eq_of_cover 2 (resOut m c) (flushed2_eq m c) fun i => by
    have h0 : (i 0 : ℕ) < 4096 := (i 0).isLt
    have h1 : (i 1 : ℕ) < 150 := (i 1).isLt
    have hN : cfg0.N = 64 := N_0
    let t : Fin cfg0.N := ⟨8 * ((i 0 : ℕ) / 512) + 7, by rw [hN]; omega⟩
    have ht : t.val = 8 * ((i 0 : ℕ) / 512) + 7 := rfl
    refine ⟨t, (flush0_2 t).mpr (by rw [ht]; omega), ?_⟩
    show i ∈ ((View.whole main_v0_0).slice (win0_2.rect t)).set
    rw [View.set_slice_whole, Rect.mem_set_unit]
    intro a
    match a with
    | ⟨0, _⟩ =>
      show win0_2.index t 0 * win0_2.size 0 ≤ (i 0 : ℕ) ∧ (i 0 : ℕ) < win0_2.index t 0 * win0_2.size 0 + win0_2.xsize (grid0.coords t) 0
      rw [(idx2 t).1, (xsize2 t).1, show win0_2.size 0 = 512 from rfl, ht]; omega
    | ⟨1, _⟩ =>
      show win0_2.index t 1 * win0_2.size 1 ≤ (i 1 : ℕ) ∧ (i 1 : ℕ) < win0_2.index t 1 * win0_2.size 1 + win0_2.xsize (grid0.coords t) 1
      rw [(idx2 t).2, (xsize2 t).2]; omega

/-- The `h_in` array's one block is the array, which ends at `Spec.hIn`. -/
theorem final3 (c : Dev nD) : (dats m 0 c).arrAt 3 cfg0.N = resIn m c :=
  (dats m 0 c).arrAt_eq_of_cover 3 (resIn m c) (flushed3_eq m c) fun i => by
    have h0 : (i 0 : ℕ) < 4096 := (i 0).isLt
    have h1 : (i 1 : ℕ) < 150 := (i 1).isLt
    have hN : cfg0.N = 64 := N_0
    let t : Fin cfg0.N := ⟨63, by rw [hN]; omega⟩
    refine ⟨t, (flush0_3 t).mpr rfl, ?_⟩
    show i ∈ ((View.whole main_v0_1).slice (win0_3.rect t)).set
    rw [View.set_slice_whole, Rect.mem_set_unit]
    intro a
    match a with
    | ⟨0, _⟩ =>
      show win0_3.index t 0 * win0_3.size 0 ≤ (i 0 : ℕ) ∧ (i 0 : ℕ) < win0_3.index t 0 * win0_3.size 0 + win0_3.xsize (grid0.coords t) 0
      rw [(idx3 t).1, (xsize3 t).1]; omega
    | ⟨1, _⟩ =>
      show win0_3.index t 1 * win0_3.size 1 ≤ (i 1 : ℕ) ∧ (i 1 : ℕ) < win0_3.index t 1 * win0_3.size 1 + win0_3.xsize (grid0.coords t) 1
      rw [(idx3 t).2, (xsize3 t).2]; omega

/-- The run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v0_1) = resIn m c
      ∧ r.2.mem ((c : Thread nD τ).loc main_v0_0) = resOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final3 m c), ((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.BodyValue

end
-- ==== Proof.RefValue.lean ====
/-
  The reference's two results are the specification's sums, index by index, on the extended reals.

  The reference first adds up the two channels of every edge: a sum over the channel axis started from 0, so
  at (p, q) it is  0 + (adj[p,q,0] + adj[p,q,1]) = edge adj p q.  It then contracts the 4096 × 4096 matrix of
  edges with the feature matrix: over the edges' FIRST axis for h_in (result row q sums over the sources p),
  over their SECOND axis for h_out (result row p sums over the targets q).
-/
import proofs.«108071_j58471684767748_1_alg».proof.Proof.Gen.ReferenceIdeal.Read
import proofs.«108071_j58471684767748_1_alg».proof.Proof.Spec

noncomputable section

namespace Cert.ReferenceIdeal.RefValue

open Cert.ReferenceIdeal Cert.ReferenceIdeal.Gen Idealize.ShloMosaic Idealize.ShloMosaic.ValueIdx

/-- The channel sum at (p, q) is edge (p, q): the sum starts from 0 and runs over the two channels. -/
theorem v0_apply (X : (⟨Cert.ReferenceIdeal.S4096x4096x2, .f32⟩ : BufTy).Contents (Elt Ideal)) (p q : Fin 4096) :
    Cert.ReferenceIdeal.Read.val_main_v0 (F := Ideal) X (ix2 p q) = Cert.Spec.edge X p q := by
  rw [Read.val_main_v0_apply, Read.val_main_cst_apply]
  show Ideal.ofBits .f32 0x00000000#32 + _ = _
  rw [Ideal.ofBits_zero_f32, zero_add, Fin.sum_univ_two]
  have e0 : Read.idx_main_v0 (ix2 p q) (0 : Fin 2) = ix3 p q (0 : Fin 2) :=
    funext fun a => by match a with | ⟨0, _⟩ => rfl | ⟨1, _⟩ => rfl | ⟨2, _⟩ => rfl
  have e1 : Read.idx_main_v0 (ix2 p q) (1 : Fin 2) = ix3 p q (1 : Fin 2) :=
    funext fun a => by match a with | ⟨0, _⟩ => rfl | ⟨1, _⟩ => rfl | ⟨2, _⟩ => rfl
  rw [e0, e1]
  rfl

/-- h_in: the contraction over the edges' first axis. At (q, d) the left operand is read at (p, q), the right at
    (p, d), p the contraction's coordinate. -/
theorem v1_eq (X : (⟨Cert.ReferenceIdeal.S4096x4096x2, .f32⟩ : BufTy).Contents (Elt Ideal))
    (H : (⟨Cert.ReferenceIdeal.S4096x150, .f32⟩ : BufTy).Contents (Elt Ideal)) :
    Cert.ReferenceIdeal.Read.val_main_v1 (F := Ideal) X H = Cert.Spec.hIn X H := by
  funext i
  obtain ⟨q, d, rfl⟩ : ∃ (q : Fin 4096) (d : Fin 150), i = ix2 q d := ⟨i 0, i 1, eq_ix2 i⟩
  rw [Read.val_main_v1_apply]
  show _ = ∑ p : Fin 4096, Cert.Spec.edge X p q * H (ix2 p d)
  refine Finset.sum_congr rfl fun p _ => ?_
  have el : Read.lidx_main_v1 (ix2 q d) p = ix2 p q :=
    funext fun a => by match a with | ⟨0, _⟩ => rfl | ⟨1, _⟩ => rfl
  have er : Read.ridx_main_v1 (ix2 q d) p = ix2 p d :=
    funext fun a => by match a with | ⟨0, _⟩ => rfl | ⟨1, _⟩ => rfl
  rw [el, er, v0_apply]

/-- h_out: the contraction over the edges' second axis. At (p, d) the left operand is read at (p, q), the right at
    (q, d), q the contraction's coordinate. -/
theorem v2_eq (X : (⟨Cert.ReferenceIdeal.S4096x4096x2, .f32⟩ : BufTy).Contents (Elt Ideal))
    (H : (⟨Cert.ReferenceIdeal.S4096x150, .f32⟩ : BufTy).Contents (Elt Ideal)) :
    Cert.ReferenceIdeal.Read.val_main_v2 (F := Ideal) X H = Cert.Spec.hOut X H := by
  funext i
  obtain ⟨p, d, rfl⟩ : ∃ (p : Fin 4096) (d : Fin 150), i = ix2 p d := ⟨i 0, i 1, eq_ix2 i⟩
  rw [Read.val_main_v2_apply]
  show _ = ∑ q : Fin 4096, Cert.Spec.edge X p q * H (ix2 q d)
  refine Finset.sum_congr rfl fun q _ => ?_
  have el : Read.lidx_main_v2 (ix2 p d) q = ix2 p q :=
    funext fun a => by match a with | ⟨0, _⟩ => rfl | ⟨1, _⟩ => rfl
  have er : Read.ridx_main_v2 (ix2 p d) q = ix2 q d :=
    funext fun a => by match a with | ⟨0, _⟩ => rfl | ⟨1, _⟩ => rfl
  rw [el, er, v0_apply]

end Cert.ReferenceIdeal.RefValue

end
-- ==== Proof.lean ====
/-
  The certificate of the two-sided aggregation kernel against its jnp reference, over the extended reals.

  Both programs compute, from an adjacency array `adj` [4096, 4096, 2] and node features `h` [4096, 150],
    h_in [q, d] = Σ_p (adj[p, q, 0] + adj[p, q, 1]) · h[p, d]      h_out[p, d] = Σ_q (adj[p, q, 0] + adj[p, q, 1]) · h[q, d].
  The reference adds the two channels and takes two whole matrix products. The kernel walks an 8 × 8 grid of
  512 × 512 tiles, row by row; at each tile it adds the tile's products to the row block's 512 rows of `h_out` (zeroed at
  the row's first tile, written back after its last) and to the column block's 512 rows of the whole `h_in` array (zeroed
  at the first tile, written back after the last). Its matrix products round the operands to bf16, which is the
  identity on the extended reals. So the kernel's results are the reference's sums taken 512 terms at a time, and
  equal to them by the associativity of addition alone: no entry needs to be finite, and the precondition is not used.

  The frames: each kernel's run is the library's pipeline run over the body's three cases (Proof/IdealFrame.lean for
  the idealized kernel, Proof/BitsFrame.lean the same text for the word-level one); the reference's frame is its run
  with the results dropped. The idealization rewrote nothing, so `preserves` holds trivially.
-/
import proofs.«108071_j58471684767748_1_alg».proof.Defs
import proofs.«108071_j58471684767748_1_alg».proof.Proof.Gen.Kernel
import proofs.«108071_j58471684767748_1_alg».proof.Proof.Gen.KernelIdeal
import proofs.«108071_j58471684767748_1_alg».proof.Proof.Gen.ReferenceIdeal
import proofs.«108071_j58471684767748_1_alg».proof.Proof.Gen.ReferenceIdeal.Run
import proofs.«108071_j58471684767748_1_alg».proof.Proof.Gen.ReferenceIdeal.Read
import proofs.«108071_j58471684767748_1_alg».proof.Proof.Gen.Pre_finite_inputs
import proofs.«108071_j58471684767748_1_alg».proof.Proof.BitsFrame
import proofs.«108071_j58471684767748_1_alg».proof.Proof.IdealFinal
import proofs.«108071_j58471684767748_1_alg».proof.Proof.RefValue

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealized kernel's two result arrays end at the specification's `hIn` and `hOut` of its arguments; the
    reference's two results are the same functions of arguments that agree. -/
theorem algebraic : Cert.algebraic_KernelIdeal_ReferenceIdeal := by
  intro m ρ m' ρ' _ hagree
  refine ⟨fun c => Cert.KernelIdeal.BodyValue.resIn m c, fun c => Cert.KernelIdeal.BodyValue.resOut m c,
    Cert.KernelIdeal.BodyValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v1_eq, Cert.ReferenceIdeal.RefValue.v1_eq, (hagree c).1, (hagree c).2]
  · rw [Cert.ReferenceIdeal.Read.val_main_v2_eq, Cert.ReferenceIdeal.RefValue.v2_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
